-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384x6 : S_.BroadcastsInDim S16384x6 (![] : Fin 0 → Fin S16384x6.rank)
  reducesTo_S16384x6_S_d0_1 : S16384x6.ReducesTo [0, 1] S_
  bcast_S_S1030x1536 : S_.BroadcastsInDim S1030x1536 (![] : Fin 0 → Fin S1030x1536.rank)
  reducesTo_S1030x1536_S_d0_1 : S1030x1536.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S512 .f32) (main_arg12 : FVec F S512 .f32) (main_arg13 : FVec F S512x1024 .f32) (main_arg14 : FVec F S1024 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_v48 main_v49 main_v50

def fn_part1 {F : FTy → Type} [FloatOps F] (main_arg4 : FVec F S1030x1536 .f32) (main_arg5 : FVec F S512x1536 .f32) (main_arg6 : FVec F S1536 .f32) (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S1030x1536 .f32 := Host.absf main_arg4
  let main_cst_6 : FVec F S_ .f32 := constant S_ .f32 0x7F800000#32
  let main_v20 : FVec F S1030x1536 .f32 := broadcastInDim S1030x1536 ![] bcast_S_S1030x1536 main_cst_6
  let main_v21 : IVec S1030x1536 1 := cmpf .olt main_v19 main_v20
  let main_c_7 : IVec S_ 1 := constantI S_ 1 1#1
  let main_v22 : IVec S_ 1 := (fun x v => Host.reduce IntOp.andi x v reducesTo_S1030x1536_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x512 .f32) (main_arg1 : FVec F S16384x1024 .f32) (main_arg2 : FVec F S16384x6 .f32) (main_arg3 : FVec F S16384x512 .f32) (main_arg4 : FVec F S1030x1536 .f32) (main_arg5 : FVec F S512x1536 .f32) (main_arg6 : FVec F S1536 .f32) (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x6 .f32 := Host.absf main_arg2
  let main_cst_2 : FVec F S_ .f32 := constant S_ .f32 0x7F800000#32
  let main_v10 : FVec F S16384x6 .f32 := broadcastInDim S16384x6 ![] bcast_S_S16384x6 main_cst_2
  let main_v11 : IVec S16384x6 1 := cmpf .olt main_v9 main_v10
  let main_c_3 : IVec S_ 1 := constantI S_ 1 1#1
  let main_v12 : IVec S_ 1 := (fun x v => Host.reduce IntOp.andi x v reducesTo_S16384x6_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x1536 : Shape := ⟨2, ![1024, 1536]⟩
abbrev S6x1536 : Shape := ⟨2, ![6, 1536]⟩
abbrev S_ : Shape := ⟨0, ![]⟩
abbrev S128x1536 : Shape := ⟨2, ![128, 1536]⟩
abbrev S1152x1536 : Shape := ⟨2, ![1152, 1536]⟩
abbrev S1x1536 : Shape := ⟨2, ![1, 1536]⟩
abbrev S1x512 : Shape := ⟨2, ![1, 512]⟩
abbrev S1x1024 : Shape := ⟨2, ![1, 1024]⟩
abbrev S512x512 : Shape := ⟨2, ![512, 512]⟩
abbrev S512x6 : Shape := ⟨2, ![512, 6]⟩
abbrev S512x122 : Shape := ⟨2, ![512, 122]⟩
abbrev S512x1152 : Shape := ⟨2, ![512, 1152]⟩
abbrev S512x1 : Shape := ⟨2, ![512, 1]⟩
abbrev S16384x32x32 : Shape := ⟨3, ![16384, 32, 32]⟩

abbrev nBuf : Space → Nat
  | .hbm => 35
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x6, .f32⟩
  | .hbm, ⟨3, _⟩ => ⟨S16384x512, .f32⟩
  | .hbm, ⟨4, _⟩ => ⟨S1030x1536, .f32⟩
  | .hbm, ⟨5, _⟩ => ⟨S512x1536, .f32⟩
  | .hbm, ⟨6, _⟩ => ⟨S1536, .f32⟩
  | .hbm, ⟨7, _⟩ => ⟨S1536, .f32⟩
  | .hbm, ⟨8, _⟩ => ⟨S1536, .f32⟩
  | .hbm, ⟨9, _⟩ => ⟨S1536, .f32⟩
  | .hbm, ⟨10, _⟩ => ⟨S1024x512, .f32⟩
  | .hbm, ⟨11, _⟩ => ⟨S512, .f32⟩
  | .hbm, ⟨12, _⟩ => ⟨S512, .f32⟩
  | .hbm, ⟨13, _⟩ => ⟨S512x1024, .f32⟩
  | .hbm, ⟨14, _⟩ => ⟨S1024, .f32⟩
  | .hbm, ⟨15, _⟩ => ⟨S1024x1536, .f32⟩
  | .hbm, ⟨16, _⟩ => ⟨S6x1536, .f32⟩
  | .hbm, ⟨17, _⟩ => ⟨S_, .i32⟩
  | .hbm, ⟨18, _⟩ => ⟨S_, .f32⟩
  | .hbm, ⟨19, _⟩ => ⟨S128x1536, .f32⟩
  | .hbm, ⟨20, _⟩ => ⟨S1152x1536, .f32⟩
  | .hbm, ⟨21, _⟩ => ⟨S1152x1536, .bf16⟩
  | .hbm, ⟨22, _⟩ => ⟨S512x1536, .bf16⟩
  | .hbm, ⟨23, _⟩ => ⟨S1024x512, .bf16⟩
  | .hbm, ⟨24, _⟩ => ⟨S512x1024, .bf16⟩
  | .hbm, ⟨25, _⟩ => ⟨S1x1536, .f32⟩
  | .hbm, ⟨26, _⟩ => ⟨S1x1536, .f32⟩
  | .hbm, ⟨27, _⟩ => ⟨S1x1536, .f32⟩
  | .hbm, ⟨28, _⟩ => ⟨S1x1536, .f32⟩
  | .hbm, ⟨29, _⟩ => ⟨S1x512, .f32⟩
  | .hbm, ⟨30, _⟩ => ⟨S1x512, .f32⟩
  | .hbm, ⟨31, _⟩ => ⟨S1x1024, .f32⟩
  | .hbm, ⟨32, _⟩ => ⟨S16384x512, .f32⟩
  | .hbm, ⟨33, _⟩ => ⟨S16384x1024, .f32⟩
  | .hbm, ⟨34, _⟩ => ⟨S16384x32x32, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x6, .f32⟩
  | .local _ .vmem, ⟨5, _⟩ => ⟨S512x6, .f32⟩
  | .local _ .vmem, ⟨6, _⟩ => ⟨S512x512, .f32⟩
  | .local _ .vmem, ⟨7, _⟩ => ⟨S512x512, .f32⟩
  | .local _ .vmem, ⟨8, _⟩ => ⟨S1152x1536, .bf16⟩
  | .local _ .vmem, ⟨9, _⟩ => ⟨S512x1536, .bf16⟩
  | .local _ .vmem, ⟨10, _⟩ => ⟨S1x1536, .f32⟩
  | .local _ .vmem, ⟨11, _⟩ => ⟨S1x1536, .f32⟩
  | .local _ .vmem, ⟨12, _⟩ => ⟨S1x1536, .f32⟩
  | .local _ .vmem, ⟨13, _⟩ => ⟨S1x1536, .f32⟩
  | .local _ .vmem, ⟨14, _⟩ => ⟨S1024x512, .bf16⟩
  | .local _ .vmem, ⟨15, _⟩ => ⟨S1x512, .f32⟩
  | .local _ .vmem, ⟨16, _⟩ => ⟨S1x512, .f32⟩
  | .local _ .vmem, ⟨17, _⟩ => ⟨S512x1024, .bf16⟩
  | .local _ .vmem, ⟨18, _⟩ => ⟨S1x1024, .f32⟩
  | .local _ .vmem, ⟨19, _⟩ => ⟨S512x512, .f32⟩
  | .local _ .vmem, ⟨20, _⟩ => ⟨S512x512, .f32⟩
  | .local _ .vmem, ⟨21, _⟩ => ⟨S512x1024, .f32⟩
  | .local _ .vmem, ⟨22, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1152x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S1030x1536_S1024x1536_0_0 : S1030x1536.Slices ![0, 0] S1024x1536
  slices_S1030x1536_S6x1536_1024_0 : S1030x1536.Slices ![1024, 0] S6x1536
  pads_S6x1536_S128x1536_01220_000 : S6x1536.Pads (![0, 0] : Fin 2 → Nat) ![122, 0] ![0, 0] S128x1536
  h_S_ : 0 < S_.numel
  concatenates_S1024x1536_S128x1536_S1152x1536_d0 : Shape.Concatenates [S1024x1536, S128x1536] S1152x1536 0
  bitsLt_bf16_f32 : FTy.bits .bf16 < FTy.bits .f32
  shapeCasts_S1536_S1x1536 : S1536.ShapeCasts S1x1536
  shapeCasts_S512_S1x512 : S512.ShapeCasts S1x512
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S512x6_S512x6_0_0 : ∀ a, (![0, 0] : Fin 2 → Nat) a + S512x6.size a ≤ S512x6.size a
  h_S512x6 : 0 < S512x6.numel
  concatenates_S512x1024_S512x6_S512x122_S512x1152_d1 : Shape.Concatenates [S512x1024, S512x6, S512x122] S512x1152 1
  inb_S1152x1536_S1152x1536_0_0 : ∀ a, (![0, 0] : Fin 2 → Nat) a + S1152x1536.size a ≤ S1152x1536.size a
  h_S1152x1536 : 0 < S1152x1536.numel
  shapeCasts_S1152x1536_S1152x1536 : S1152x1536.ShapeCasts S1152x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reduces_S512x1536_S512 : S512x1536.Reduces [1] S512
  shapeCasts_S512_S512x1 : S512.ShapeCasts S512x1
  broadcasts_S512x1_S512x1536 : S512x1.Broadcasts S512x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  concatenates_S512x512_S512x512_S512x1024_d1 : Shape.Concatenates [S512x512, S512x512] S512x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S16384x32x32 : S16384x1024.ShapeCasts S16384x32x32
  dot_S512x1152_S1152x1536_S512x1536_1_0_0_1_n_n_wf : DotDims.WF S512x1152 S1152x1536 S512x1536 [1] [0] [0] [1] [] []
  dot_S512x512_S512x1536_S512x1536_1_0_0_1_n_n_wf : DotDims.WF S512x512 S512x1536 S512x1536 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x6.size a ≤ S16384x6.size a
  hwx0_2 : ∀ i : grid0.Coords, EltTy.bits .f32 = 32 ∨ (Rect.block (s := S16384x6) S512x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x1536.size a ≤ S1152x1536.size a
  hwx0_4 : ∀ i : grid0.Coords, EltTy.bits .bf16 = 32 ∨ (Rect.block (s := S1152x1536) S1152x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1536.size a ≤ S1x1536.size a
  hwx0_9 : ∀ i : grid0.Coords, EltTy.bits .f32 = 32 ∨ (Rect.block (s := S1x1536) S1x1536.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .bf16 = 32 ∨ (Rect.block (s := S512x1024) S512x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S16384x512.size a
  hwx0_15 : ∀ i : grid0.Coords, EltTy.bits .f32 = 32 ∨ (Rect.block (s := S16384x512) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S16384x1024.size a
  hwx0_16 : ∀ i : grid0.Coords, EltTy.bits .f32 = 32 ∨ (Rect.block (s := S16384x1024) S512x1024.size (cc0_transform_16 i) (hinb0_16 i)).WholeWords (EltTy.packing .f32)

variable [Facts₀]

def dot_S512x1152_S1152x1536_S512x1536_1_0_0_1_n_n : DotDims S512x1152 S1152x1536 S512x1536 where
  lhsContracting := [1]
  rhsContracting := [0]
  lhsNonContracting := [0]
  rhsNonContracting := [1]
  lhsBatch := []
  rhsBatch := []
  wf := dot_S512x1152_S1152x1536_S512x1536_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1152x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S512x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S16384x1030 : Shape := ⟨2, ![16384, 1030]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩
abbrev S1x512 : Shape := ⟨2, ![1, 512]⟩
abbrev S1x1024 : Shape := ⟨2, ![1, 1024]⟩
abbrev S16384x32x32 : Shape := ⟨3, ![16384, 32, 32]⟩

abbrev nBuf : Space → Nat
  | .hbm => 144
  | .vmem => 0
  | .smem => 0
  | _ => 0

abbrev hbmTy0_0 (i : Nat) : BufTy := match i % 128 with
  | 0 => ⟨S16384x512, .f32⟩
  | 1 => ⟨S16384x1024, .f32⟩
  | 2 => ⟨S16384x6, .f32⟩
  | 3 => ⟨S16384x512, .f32⟩
  | 4 => ⟨S1030x1536, .f32⟩
  | 5 => ⟨S512x1536, .f32⟩
  | 6 => ⟨S1536, .f32⟩
  | 7 => ⟨S1536, .f32⟩
  | 8 => ⟨S1536, .f32⟩
  | 9 => ⟨S1536, .f32⟩
  | 10 => ⟨S1024x512, .f32⟩
  | 11 => ⟨S512, .f32⟩
  | 12 => ⟨S512, .f32⟩
  | 13 => ⟨S512x1024, .f32⟩
  | 14 => ⟨S1024, .f32⟩
  | 15 => ⟨S16384x1030, .f32⟩
  | 16 => ⟨S16384x1536, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1536, .f32⟩
  | 24 => ⟨S16384x1536, .f32⟩
  | 25 => ⟨S16384x1536, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1536, .f32⟩
  | 33 => ⟨S16384x1536, .f32⟩
  | 34 => ⟨S_, .f32⟩
  | 35 => ⟨S16384x1, .f32⟩
  | 36 => ⟨S16384x1, .f32⟩
  | 37 => ⟨S16384x1, .f32⟩
  | 38 => ⟨S16384x1536, .f32⟩
  | 39 => ⟨S16384x1536, .f32⟩
  | 40 => ⟨S1x1536, .f32⟩
  | 41 => ⟨S16384x1536, .f32⟩
  | 42 => ⟨S16384x1536, .f32⟩
  | 43 => ⟨S1x1536, .f32⟩
  | 44 => ⟨S16384x1536, .f32⟩
  | 45 => ⟨S16384x1536, .f32⟩
  | 46 => ⟨S16384x1536, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x1536, .f32⟩
  | 54 => ⟨S16384x1536, .f32⟩
  | 55 => ⟨S16384x1536, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1536, .f32⟩
  | 63 => ⟨S16384x1536, .f32⟩
  | 64 => ⟨S_, .f32⟩
  | 65 => ⟨S16384x1, .f32⟩
  | 66 => ⟨S16384x1, .f32⟩
  | 67 => ⟨S16384x1, .f32⟩
  | 68 => ⟨S16384x1536, .f32⟩
  | 69 => ⟨S16384x1536, .f32⟩
  | 70 => ⟨S1x1536, .f32⟩
  | 71 => ⟨S16384x1536, .f32⟩
  | 72 => ⟨S16384x1536, .f32⟩
  | 73 => ⟨S1x1536, .f32⟩
  | 74 => ⟨S16384x1536, .f32⟩
  | 75 => ⟨S16384x1536, .f32⟩
  | 76 => ⟨S16384x512, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x1024, .f32⟩
  | 110 => ⟨S16384x512, .f32⟩
  | 111 => ⟨S1x512, .f32⟩
  | 112 => ⟨S16384x512, .f32⟩
  | 113 => ⟨S16384x512, .f32⟩
  | 114 => ⟨S16384x512, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S16384x1, .f32⟩
  | 125 => ⟨S16384x512, .f32⟩
  | 126 => ⟨S16384x512, .f32⟩
  | 127 => ⟨S1x512, .f32⟩
  | _ => ⟨S16384x512, .f32⟩

abbrev hbmTy0_1 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S16384x1024, .f32⟩
  | 12 => ⟨S1x1024, .f32⟩
  | 13 => ⟨S16384x1024, .f32⟩
  | 14 => ⟨S16384x1024, .f32⟩
  | 15 => ⟨S16384x32x32, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_call0_v5 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  concatenates_S16384x1024_S16384x6_S16384x1030_d1 : Shape.Concatenates [S16384x1024, S16384x6] S16384x1030 1
  reducesTo_S16384x1536_S16384_d1 : S16384x1536.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1536_0_1 : S16384x1.BroadcastsInDim S16384x1536 (![0, 1] : Fin 2 → Fin S16384x1536.rank)
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  bcast_S_S16384x512 : S_.BroadcastsInDim S16384x512 (![] : Fin 0 → Fin S16384x512.rank)
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  bcast_S16384x1_S16384x512_0_1 : S16384x1.BroadcastsInDim S16384x512 (![0, 1] : Fin 2 → Fin S16384x512.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x32x32 : S16384x1024.ShapeCasts S16384x32x32
  dot_S16384x1030_S1030x1536_S16384x1536_1_0_0_1_n_n_wf : DotDims.WF S16384x1030 S1030x1536 S16384x1536 [1] [0] [0] [1] [] []
  dot_S16384x512_S512x1536_S16384x1536_1_0_0_1_n_n_wf : DotDims.WF S16384x512 S512x1536 S16384x1536 [1] [0] [0] [1] [] []
  dot_S16384x1024_S1024x512_S16384x512_1_0_0_1_n_n_wf : DotDims.WF S16384x1024 S1024x512 S16384x512 [1] [0] [0] [1] [] []
  dot_S16384x512_S512x1024_S16384x1024_1_0_0_1_n_n_wf : DotDims.WF S16384x512 S512x1024 S16384x1024 [1] [0] [0] [1] [] []

variable [Facts₀]

def dot_S16384x1030_S1030x1536_S16384x1536_1_0_0_1_n_n : DotDims S16384x1030 S1030x1536 S16384x1536 where
  lhsContracting := [1]
  rhsContracting := [0]
  lhsNonContracting := [0]
  rhsNonContracting := [1]
  lhsBatch := []
  rhsBatch := []
  wf := dot_S16384x1030_S1030x1536_S16384x1536_1_0_0_1_n_n_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.Spec.lean ====
/-
  The recurrent cell and its read-out head, one batch row at a time, over the extended reals.

  Every batch row is computed independently of the others. For one row, with previous state `ph` (512 entries),
  the two pre-activations `ihPre`, `hhPre` (1536 entries each, a row vector times a weight matrix) are each
  normalised: with `μ` the row's mean and `σ²` the mean of the squared deviations,
  `(x j - μ) · (σ² + ε)^(-1/2) · g j + b j`. The 1536 entries are three groups of 512 (offsets 0, 512, 1024): with
  `r = logistic (ih₀ + hh₀)`, `z = logistic (ih₁ + hh₁)`, `n = tanh (ih₂ + r · hh₂)` the new state is
  `(1 - z) · n + z · ph`. The head joins the new state and the row's embedding into 1024 entries, applies a matrix
  and a bias, divides by the root of the mean square (plus a small constant), scales, applies `x · logistic x`, and
  applies a second matrix and bias.

  The means divide by the numbers the two programs spell as 32-bit float words; the words are kept as they are
  spelt, since both programs spell the same ones.

  A row vector padded with zeros times a matrix padded with zero rows is the unpadded product: the extra terms
  of the sum are all `0 · 0` (`rowDot_pad`).
-/
import Idealize.ShloMosaic.PureOps.Ideal
import Idealize.ShloMosaic.PureOps.IdealRules
import Idealize.ShloMosaic.Lib.ValueIdx

noncomputable section

namespace Cert.Cell

open Idealize.ShloMosaic Idealize.ShloMosaic.ValueIdx

/-! ## The float words both programs spell -/

/-- 1536.0, the length of a pre-activation row. -/
abbrev w1536 : EReal := Ideal.ofBits .f32 0x44C00000#32
/-- The constant added to the variance (the float nearest 1e-5). -/
abbrev wEpsLn : EReal := Ideal.ofBits .f32 0x3727C5AC#32
/-- 1.0. -/
abbrev wOne : EReal := Ideal.ofBits .f32 0x3F800000#32
/-- 512.0, the length of the head's hidden row. -/
abbrev w512 : EReal := Ideal.ofBits .f32 0x44000000#32
/-- The constant added to the mean square (the float nearest 1e-8). -/
abbrev wEpsRms : EReal := Ideal.ofBits .f32 0x322BCC77#32

/-- The word spelt `1.0` is the number one. -/
theorem wOne_eq : wOne = 1 := IdealRules.sign_bit.ideal_onePat .f32

/-- The logistic function written out with the word `1.0`, `1 / (1 + e^(-x))`, is the logistic function. -/
theorem logistic_spelt (x : EReal) : Ideal.div wOne (wOne + Ideal.exp (-x)) = Ideal.logistic x := by
  rw [wOne_eq]; rfl

/-! ## Rows, matrices and vectors read off arrays -/

/-- Row `r` of a rank-2 array. -/
def row {a b : ℕ} (X : (⟨2, ![a, b]⟩ : Shape).Idx → EReal) (r : Fin a) : Fin b → EReal := fun k => X (ix2 r k)
/-- A rank-2 array as a function of its two coordinates. -/
def mat {a b : ℕ} (X : (⟨2, ![a, b]⟩ : Shape).Idx → EReal) : Fin a → Fin b → EReal := fun k j => X (ix2 k j)
/-- A rank-1 array as a function of its coordinate. -/
def vec {a : ℕ} (x : (⟨1, ![a]⟩ : Shape).Idx → EReal) : Fin a → EReal := fun k => x (ix1 k)

/-- Two row vectors joined end to end. -/
def cat2 {a b n : ℕ} (hn : n = a + b) (x : Fin a → EReal) (y : Fin b → EReal) (k : Fin n) : EReal :=
  if h : k.val < a then x ⟨k.val, h⟩ else y ⟨k.val - a, by have := k.isLt; omega⟩

/-! ## One row -/

/-- Entry `j` of a row vector times a matrix. -/
def rowDot {K n : ℕ} (x : Fin K → EReal) (W : Fin K → Fin n → EReal) (j : Fin n) : EReal := ∑ k, x k * W k j

/-- The mean of a row: its sum divided by `N`. -/
def rowMean {n : ℕ} (N : EReal) (x : Fin n → EReal) : EReal := Ideal.div (∑ k, x k) N

/-- A row less its mean. -/
def centred {n : ℕ} (N : EReal) (x : Fin n → EReal) (k : Fin n) : EReal := x k - rowMean N x

/-- Layer normalisation of a row with gain `g` and bias `b`. -/
def layerNorm {n : ℕ} (N eps : EReal) (x g b : Fin n → EReal) (j : Fin n) : EReal :=
  centred N x j * Ideal.rsqrt (rowMean N (fun k => centred N x k * centred N x k) + eps) * g j + b j

/-- Entry `j` of the group of 512 entries that starts at `o`. -/
def grp (o : ℕ) (ho : o + 512 ≤ 1536) (j : Fin 512) : Fin 1536 := ⟨o + j.val, by have := j.isLt; omega⟩

/-- The gates on two normalised rows and the previous state. -/
def gate (ih hh : Fin 1536 → EReal) (ph : Fin 512 → EReal) (j : Fin 512) : EReal :=
  (wOne - Ideal.logistic (ih (grp 512 (by decide) j) + hh (grp 512 (by decide) j)))
      * Ideal.tanh (ih (grp 1024 (by decide) j)
          + Ideal.logistic (ih (grp 0 (by decide) j) + hh (grp 0 (by decide) j)) * hh (grp 1024 (by decide) j))
    + Ideal.logistic (ih (grp 512 (by decide) j) + hh (grp 512 (by decide) j)) * ph j

/-- The new state of one row from its two pre-activations. -/
def hidden (ihPre hhPre g1 b1 g2 b2 : Fin 1536 → EReal) (ph : Fin 512 → EReal) : Fin 512 → EReal :=
  gate (layerNorm w1536 wEpsLn ihPre g1 b1) (layerNorm w1536 wEpsLn hhPre g2 b2) ph

/-- The head's first layer: a matrix and a bias. -/
def pre (pin : Fin 1024 → EReal) (W : Fin 1024 → Fin 512 → EReal) (b : Fin 512 → EReal) (j : Fin 512) : EReal :=
  rowDot pin W j + b j

/-- A row divided by the root of its mean square plus a small constant, then scaled. -/
def rmsNorm (u s : Fin 512 → EReal) (j : Fin 512) : EReal :=
  u j * Ideal.rsqrt (rowMean w512 (fun k => u k * u k) + wEpsRms) * s j

/-- `x · logistic x`. -/
def silu (x : EReal) : EReal := x * Ideal.logistic x

/-- The head of one row. -/
def logits (pin : Fin 1024 → EReal) (W1 : Fin 1024 → Fin 512 → EReal) (b1 s : Fin 512 → EReal)
    (W2 : Fin 512 → Fin 1024 → EReal) (b2 : Fin 1024 → EReal) (j : Fin 1024) : EReal :=
  rowDot (fun k => silu (rmsNorm (pre pin W1 b1) s k)) W2 j + b2 j

/-! ## The whole arrays -/

/-- The pre-activation row of batch row `r` from the joined inputs. -/
def ihRow (z : (⟨2, ![16384, 1024]⟩ : Shape).Idx → EReal) (a : (⟨2, ![16384, 6]⟩ : Shape).Idx → EReal)
    (Wih : (⟨2, ![1030, 1536]⟩ : Shape).Idx → EReal) (r : Fin 16384) : Fin 1536 → EReal :=
  rowDot (cat2 (n := 1030) rfl (row z r) (row a r)) (mat Wih)

/-- The new state, entry `(r, j)`. -/
def stateAt (ph : (⟨2, ![16384, 512]⟩ : Shape).Idx → EReal) (z : (⟨2, ![16384, 1024]⟩ : Shape).Idx → EReal)
    (a : (⟨2, ![16384, 6]⟩ : Shape).Idx → EReal) (Wih : (⟨2, ![1030, 1536]⟩ : Shape).Idx → EReal)
    (Whh : (⟨2, ![512, 1536]⟩ : Shape).Idx → EReal) (g1 b1 g2 b2 : (⟨1, ![1536]⟩ : Shape).Idx → EReal)
    (r : Fin 16384) (j : Fin 512) : EReal :=
  hidden (ihRow z a Wih r) (rowDot (row ph r) (mat Whh)) (vec g1) (vec b1) (vec g2) (vec b2) (row ph r) j

/-- The head's output, entry `(r, j)`, from the new state `h` of the same row. -/
def logitsAt (h : Fin 16384 → Fin 512 → EReal) (e : (⟨2, ![16384, 512]⟩ : Shape).Idx → EReal)
    (W1 : (⟨2, ![1024, 512]⟩ : Shape).Idx → EReal) (c1 s : (⟨1, ![512]⟩ : Shape).Idx → EReal)
    (W2 : (⟨2, ![512, 1024]⟩ : Shape).Idx → EReal) (c2 : (⟨1, ![1024]⟩ : Shape).Idx → EReal)
    (r : Fin 16384) (j : Fin 1024) : EReal :=
  logits (cat2 (n := 1024) rfl (h r) (row e r)) (mat W1) (vec c1) (vec s) (mat W2) (vec c2) j

/-- The new state as a whole array. -/
def stateArr (ph : (⟨2, ![16384, 512]⟩ : Shape).Idx → EReal) (z : (⟨2, ![16384, 1024]⟩ : Shape).Idx → EReal)
    (a : (⟨2, ![16384, 6]⟩ : Shape).Idx → EReal) (Wih : (⟨2, ![1030, 1536]⟩ : Shape).Idx → EReal)
    (Whh : (⟨2, ![512, 1536]⟩ : Shape).Idx → EReal) (g1 b1 g2 b2 : (⟨1, ![1536]⟩ : Shape).Idx → EReal) :
    (⟨2, ![16384, 512]⟩ : Shape).Idx → EReal :=
  fun i => stateAt ph z a Wih Whh g1 b1 g2 b2 (i 0) (i 1)

/-- The head's output as a whole array, over the new state of every row. -/
def logitsArr (h : Fin 16384 → Fin 512 → EReal) (e : (⟨2, ![16384, 512]⟩ : Shape).Idx → EReal)
    (W1 : (⟨2, ![1024, 512]⟩ : Shape).Idx → EReal) (c1 s : (⟨1, ![512]⟩ : Shape).Idx → EReal)
    (W2 : (⟨2, ![512, 1024]⟩ : Shape).Idx → EReal) (c2 : (⟨1, ![1024]⟩ : Shape).Idx → EReal) :
    (⟨2, ![16384, 1024]⟩ : Shape).Idx → EReal :=
  fun i => logitsAt h e W1 c1 s W2 c2 (i 0) (i 1)

/-! ## A padded product -/

/-- A row vector `x'` of `K + P` entries and a matrix `W'` of `K + P` rows that agree with `x` and `W` on the first `K`
    and whose products vanish on the last `P` give the same product entry as `x` and `W`. -/
theorem rowDot_pad {K P n : ℕ} (x : Fin K → EReal) (W : Fin K → Fin n → EReal) (x' : Fin (K + P) → EReal)
    (W' : Fin (K + P) → Fin n → EReal) (j : Fin n)
    (hlo : ∀ k : Fin K, x' (Fin.castAdd P k) * W' (Fin.castAdd P k) j = x k * W k j)
    (hhi : ∀ k : Fin P, x' (Fin.natAdd K k) * W' (Fin.natAdd K k) j = 0) :
    rowDot x' W' j = rowDot x W j := by
  unfold rowDot
  rw [Fin.sum_univ_add]
  rw [Finset.sum_congr rfl (fun k _ => hlo k), Finset.sum_congr rfl (fun k _ => hhi k)]
  rw [Finset.sum_const_zero, add_zero]

end Cert.Cell

end
-- ==== Proof.Blocks.lean ====
/-
  Each window's block at a grid point, read off the array the region finds.

  The grid has 32 points. At point `t` the four batch-row windows (the previous state, the two inputs that are joined,
  the embedding) and the two output windows hold rows `512 t` to `512 t + 511` of their arrays, all columns: entry
  `(p, k)` of the block is entry `(512 t + p, k)` of the array. Every other window (the weights, gains, biases and
  scales) holds its whole array at every point: its block is the array.
-/
import proofs.«158063_j6562710028805_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The batch-row windows sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- Every other window sits at block `(0, 0)`. -/
theorem idx_whole : ∀ t : Fin cfg0.N,
    win0_4.index t (0 : Fin 2) = 0 ∧ win0_4.index t (1 : Fin 2) = 0
    ∧     win0_5.index t (0 : Fin 2) = 0 ∧ win0_5.index t (1 : Fin 2) = 0
    ∧     win0_6.index t (0 : Fin 2) = 0 ∧ win0_6.index t (1 : Fin 2) = 0
    ∧     win0_7.index t (0 : Fin 2) = 0 ∧ win0_7.index t (1 : Fin 2) = 0
    ∧     win0_8.index t (0 : Fin 2) = 0 ∧ win0_8.index t (1 : Fin 2) = 0
    ∧     win0_9.index t (0 : Fin 2) = 0 ∧ win0_9.index t (1 : Fin 2) = 0
    ∧     win0_10.index t (0 : Fin 2) = 0 ∧ win0_10.index t (1 : Fin 2) = 0
    ∧     win0_11.index t (0 : Fin 2) = 0 ∧ win0_11.index t (1 : Fin 2) = 0
    ∧     win0_12.index t (0 : Fin 2) = 0 ∧ win0_12.index t (1 : Fin 2) = 0
    ∧     win0_13.index t (0 : Fin 2) = 0 ∧ win0_13.index t (1 : Fin 2) = 0
    ∧     win0_14.index t (0 : Fin 2) = 0 ∧ win0_14.index t (1 : Fin 2) = 0 :=
  (by decide +kernel : ∀ t : Fin grid0.N, _)

/-- The array row that row `p` of the block at point `t` is. -/
def grow (t : Fin cfg0.N) (p : Fin 512) : Fin 16384 :=
  ⟨512 * t.val + p.val, by have := t.isLt; have hN : cfg0.N = 32 := N_0; have := p.isLt; omega⟩

/-- Window 0's block at point `t`, entry `(p, k)`, is entry `(512 t + p, k)` of its array. -/
theorem iblk0_apply (c : Dev nD) (t : Fin cfg0.N) (p : Fin 512) (k : Fin 512) :
    (iblk m c 0 t : Vec F S512x512 .f32) (ix2 p k) = (V m c main_arg0 : Vec F S16384x512 .f32) (ix2 (grow t p) k) := by
  obtain ⟨e0, e1, -⟩ := idx_rows t
  unfold iblk
  rw [View.read_apply]
  show (V m c main_arg0 : Vec F S16384x512 .f32) _ = _
  refine congrArg (V m c main_arg0 : Vec F S16384x512 .f32) (funext fun a => Fin.ext ?_)
  match a with
  | ⟨0, _⟩ => show win0_0.index t 0 * 512 + 1 * p.val = 512 * t.val + p.val; rw [e0]; omega
  | ⟨1, _⟩ => show win0_0.index t 1 * 512 + 1 * k.val = k.val; rw [e1]; omega

/-- Window 1's block at point `t`, entry `(p, k)`, is entry `(512 t + p, k)` of its array. -/
theorem iblk1_apply (c : Dev nD) (t : Fin cfg0.N) (p : Fin 512) (k : Fin 1024) :
    (iblk m c 1 t : Vec F S512x1024 .f32) (ix2 p k) = (V m c main_arg1 : Vec F S16384x1024 .f32) (ix2 (grow t p) k) := by
  obtain ⟨-, -, e0, e1, -⟩ := idx_rows t
  unfold iblk
  rw [View.read_apply]
  show (V m c main_arg1 : Vec F S16384x1024 .f32) _ = _
  refine congrArg (V m c main_arg1 : Vec F S16384x1024 .f32) (funext fun a => Fin.ext ?_)
  match a with
  | ⟨0, _⟩ => show win0_1.index t 0 * 512 + 1 * p.val = 512 * t.val + p.val; rw [e0]; omega
  | ⟨1, _⟩ => show win0_1.index t 1 * 1024 + 1 * k.val = k.val; rw [e1]; omega

/-- Window 2's block at point `t`, entry `(p, k)`, is entry `(512 t + p, k)` of its array. -/
theorem iblk2_apply (c : Dev nD) (t : Fin cfg0.N) (p : Fin 512) (k : Fin 6) :
    (iblk m c 2 t : Vec F S512x6 .f32) (ix2 p k) = (V m c main_arg2 : Vec F S16384x6 .f32) (ix2 (grow t p) k) := by
  obtain ⟨-, -, -, -, e0, e1, -⟩ := idx_rows t
  unfold iblk
  rw [View.read_apply]
  show (V m c main_arg2 : Vec F S16384x6 .f32) _ = _
  refine congrArg (V m c main_arg2 : Vec F S16384x6 .f32) (funext fun a => Fin.ext ?_)
  match a with
  | ⟨0, _⟩ => show win0_2.index t 0 * 512 + 1 * p.val = 512 * t.val + p.val; rw [e0]; omega
  | ⟨1, _⟩ => show win0_2.index t 1 * 6 + 1 * k.val = k.val; rw [e1]; omega

/-- Window 3's block at point `t`, entry `(p, k)`, is entry `(512 t + p, k)` of its array. -/
theorem iblk3_apply (c : Dev nD) (t : Fin cfg0.N) (p : Fin 512) (k : Fin 512) :
    (iblk m c 3 t : Vec F S512x512 .f32) (ix2 p k) = (V m c main_arg3 : Vec F S16384x512 .f32) (ix2 (grow t p) k) := by
  obtain ⟨-, -, -, -, -, -, e0, e1, -⟩ := idx_rows t
  unfold iblk
  rw [View.read_apply]
  show (V m c main_arg3 : Vec F S16384x512 .f32) _ = _
  refine congrArg (V m c main_arg3 : Vec F S16384x512 .f32) (funext fun a => Fin.ext ?_)
  match a with
  | ⟨0, _⟩ => show win0_3.index t 0 * 512 + 1 * p.val = 512 * t.val + p.val; rw [e0]; omega
  | ⟨1, _⟩ => show win0_3.index t 1 * 512 + 1 * k.val = k.val; rw [e1]; omega

/-- Window 4's block is its whole array at every point. -/
theorem iblk4_eq (c : Dev nD) (t : Fin cfg0.N) :
    (iblk m c 4 t : Vec F S1152x1536 .bf16) = (V m c main_v4 : Vec F S1152x1536 .bf16) := by
  obtain ⟨e0, e1, -⟩ := idx_whole t
  funext x
  unfold iblk
  rw [View.read_apply]
  show (V m c main_v4 : Vec F S1152x1536 .bf16) _ = _
  refine congrArg (V m c main_v4 : Vec F S1152x1536 .bf16) (funext fun a => Fin.ext ?_)
  match a with
  | ⟨0, _⟩ => show win0_4.index t 0 * 1152 + 1 * (x 0).val = (x 0).val; rw [e0]; omega
  | ⟨1, _⟩ => show win0_4.index t 1 * 1536 + 1 * (x 1).val = (x 1).val; rw [e1]; omega

/-- Window 5's block is its whole array at every point. -/
theorem iblk5_eq (c : Dev nD) (t : Fin cfg0.N) :
    (iblk m c 5 t : Vec F S512x1536 .bf16) = (V m c main_v5 : Vec F S512x1536 .bf16) := by
  obtain ⟨-, -, e0, e1, -⟩ := idx_whole t
  funext x
  unfold iblk
  rw [View.read_apply]
  show (V m c main_v5 : Vec F S512x1536 .bf16) _ = _
  refine congrArg (V m c main_v5 : Vec F S512x1536 .bf16) (funext fun a => Fin.ext ?_)
  match a with
  | ⟨0, _⟩ => show win0_5.index t 0 * 512 + 1 * (x 0).val = (x 0).val; rw [e0]; omega
  | ⟨1, _⟩ => show win0_5.index t 1 * 1536 + 1 * (x 1).val = (x 1).val; rw [e1]; omega

/-- Window 6's block is its whole array at every point. -/
theorem iblk6_eq (c : Dev nD) (t : Fin cfg0.N) :
    (iblk m c 6 t : Vec F S1x1536 .f32) = (V m c main_v8 : Vec F S1x1536 .f32) := by
  obtain ⟨-, -, -, -, e0, e1, -⟩ := idx_whole t
  funext x
  unfold iblk
  rw [View.read_apply]
  show (V m c main_v8 : Vec F S1x1536 .f32) _ = _
  refine congrArg (V m c main_v8 : Vec F S1x1536 .f32) (funext fun a => Fin.ext ?_)
  match a with
  | ⟨0, _⟩ => show win0_6.index t 0 * 1 + 1 * (x 0).val = (x 0).val; rw [e0]; omega
  | ⟨1, _⟩ => show win0_6.index t 1 * 1536 + 1 * (x 1).val = (x 1).val; rw [e1]; omega

/-- Window 7's block is its whole array at every point. -/
theorem iblk7_eq (c : Dev nD) (t : Fin cfg0.N) :
    (iblk m c 7 t : Vec F S1x1536 .f32) = (V m c main_v9 : Vec F S1x1536 .f32) := by
  obtain ⟨-, -, -, -, -, -, e0, e1, -⟩ := idx_whole t
  funext x
  unfold iblk
  rw [View.read_apply]
  show (V m c main_v9 : Vec F S1x1536 .f32) _ = _
  refine congrArg (V m c main_v9 : Vec F S1x1536 .f32) (funext fun a => Fin.ext ?_)
  match a with
  | ⟨0, _⟩ => show win0_7.index t 0 * 1 + 1 * (x 0).val = (x 0).val; rw [e0]; omega
  | ⟨1, _⟩ => show win0_7.index t 1 * 1536 + 1 * (x 1).val = (x 1).val; rw [e1]; omega

/-- Window 8's block is its whole array at every point. -/
theorem iblk8_eq (c : Dev nD) (t : Fin cfg0.N) :
    (iblk m c 8 t : Vec F S1x1536 .f32) = (V m c main_v10 : Vec F S1x1536 .f32) := by
  obtain ⟨-, -, -, -, -, -, -, -, e0, e1, -⟩ := idx_whole t
  funext x
  unfold iblk
  rw [View.read_apply]
  show (V m c main_v10 : Vec F S1x1536 .f32) _ = _
  refine congrArg (V m c main_v10 : Vec F S1x1536 .f32) (funext fun a => Fin.ext ?_)
  match a with
  | ⟨0, _⟩ => show win0_8.index t 0 * 1 + 1 * (x 0).val = (x 0).val; rw [e0]; omega
  | ⟨1, _⟩ => show win0_8.index t 1 * 1536 + 1 * (x 1).val = (x 1).val; rw [e1]; omega

/-- Window 9's block is its whole array at every point. -/
theorem iblk9_eq (c : Dev nD) (t : Fin cfg0.N) :
    (iblk m c 9 t : Vec F S1x1536 .f32) = (V m c main_v11 : Vec F S1x1536 .f32) := by
  obtain ⟨-, -, -, -, -, -, -, -, -, -, e0, e1, -⟩ := idx_whole t
  funext x
  unfold iblk
  rw [View.read_apply]
  show (V m c main_v11 : Vec F S1x1536 .f32) _ = _
  refine congrArg (V m c main_v11 : Vec F S1x1536 .f32) (funext fun a => Fin.ext ?_)
  match a with
  | ⟨0, _⟩ => show win0_9.index t 0 * 1 + 1 * (x 0).val = (x 0).val; rw [e0]; omega
  | ⟨1, _⟩ => show win0_9.index t 1 * 1536 + 1 * (x 1).val = (x 1).val; rw [e1]; omega

/-- Window 10's block is its whole array at every point. -/
theorem iblk10_eq (c : Dev nD) (t : Fin cfg0.N) :
    (iblk m c 10 t : Vec F S1024x512 .bf16) = (V m c main_v6 : Vec F S1024x512 .bf16) := by
  obtain ⟨-, -, -, -, -, -, -, -, -, -, -, -, e0, e1, -⟩ := idx_whole t
  funext x
  unfold iblk
  rw [View.read_apply]
  show (V m c main_v6 : Vec F S1024x512 .bf16) _ = _
  refine congrArg (V m c main_v6 : Vec F S1024x512 .bf16) (funext fun a => Fin.ext ?_)
  match a with
  | ⟨0, _⟩ => show win0_10.index t 0 * 1024 + 1 * (x 0).val = (x 0).val; rw [e0]; omega
  | ⟨1, _⟩ => show win0_10.index t 1 * 512 + 1 * (x 1).val = (x 1).val; rw [e1]; omega

/-- Window 11's block is its whole array at every point. -/
theorem iblk11_eq (c : Dev nD) (t : Fin cfg0.N) :
    (iblk m c 11 t : Vec F S1x512 .f32) = (V m c main_v12 : Vec F S1x512 .f32) := by
  obtain ⟨-, -, -, -, -, -, -, -, -, -, -, -, -, -, e0, e1, -⟩ := idx_whole t
  funext x
  unfold iblk
  rw [View.read_apply]
  show (V m c main_v12 : Vec F S1x512 .f32) _ = _
  refine congrArg (V m c main_v12 : Vec F S1x512 .f32) (funext fun a => Fin.ext ?_)
  match a with
  | ⟨0, _⟩ => show win0_11.index t 0 * 1 + 1 * (x 0).val = (x 0).val; rw [e0]; omega
  | ⟨1, _⟩ => show win0_11.index t 1 * 512 + 1 * (x 1).val = (x 1).val; rw [e1]; omega

/-- Window 12's block is its whole array at every point. -/
theorem iblk12_eq (c : Dev nD) (t : Fin cfg0.N) :
    (iblk m c 12 t : Vec F S1x512 .f32) = (V m c main_v13 : Vec F S1x512 .f32) := by
  obtain ⟨-, -, -, -, -, -, -, -, -, -, -, -, -, -, -, -, e0, e1, -⟩ := idx_whole t
  funext x
  unfold iblk
  rw [View.read_apply]
  show (V m c main_v13 : Vec F S1x512 .f32) _ = _
  refine congrArg (V m c main_v13 : Vec F S1x512 .f32) (funext fun a => Fin.ext ?_)
  match a with
  | ⟨0, _⟩ => show win0_12.index t 0 * 1 + 1 * (x 0).val = (x 0).val; rw [e0]; omega
  | ⟨1, _⟩ => show win0_12.index t 1 * 512 + 1 * (x 1).val = (x 1).val; rw [e1]; omega

/-- Window 13's block is its whole array at every point. -/
theorem iblk13_eq (c : Dev nD) (t : Fin cfg0.N) :
    (iblk m c 13 t : Vec F S512x1024 .bf16) = (V m c main_v7 : Vec F S512x1024 .bf16) := by
  obtain ⟨-, -, -, -, -, -, -, -, -, -, -, -, -, -, -, -, -, -, e0, e1, -⟩ := idx_whole t
  funext x
  unfold iblk
  rw [View.read_apply]
  show (V m c main_v7 : Vec F S512x1024 .bf16) _ = _
  refine congrArg (V m c main_v7 : Vec F S512x1024 .bf16) (funext fun a => Fin.ext ?_)
  match a with
  | ⟨0, _⟩ => show win0_13.index t 0 * 512 + 1 * (x 0).val = (x 0).val; rw [e0]; omega
  | ⟨1, _⟩ => show win0_13.index t 1 * 1024 + 1 * (x 1).val = (x 1).val; rw [e1]; omega

/-- Window 14's block is its whole array at every point. -/
theorem iblk14_eq (c : Dev nD) (t : Fin cfg0.N) :
    (iblk m c 14 t : Vec F S1x1024 .f32) = (V m c main_v14 : Vec F S1x1024 .f32) := by
  obtain ⟨-, -, -, -, -, -, -, -, -, -, -, -, -, -, -, -, -, -, -, -, e0, e1⟩ := idx_whole t
  funext x
  unfold iblk
  rw [View.read_apply]
  show (V m c main_v14 : Vec F S1x1024 .f32) _ = _
  refine congrArg (V m c main_v14 : Vec F S1x1024 .f32) (funext fun a => Fin.ext ?_)
  match a with
  | ⟨0, _⟩ => show win0_14.index t 0 * 1 + 1 * (x 0).val = (x 0).val; rw [e0]; omega
  | ⟨1, _⟩ => show win0_14.index t 1 * 1024 + 1 * (x 1).val = (x 1).val; rw [e1]; omega

end Cert.KernelIdeal.Blocks

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.HostIn.lean ====
/-
  What the region finds in the arrays the host wrote before it.

  Before the kernel is launched the host extends the 1030-row input weight matrix to 1152 rows (rows 0 to 1023,
  then rows 1024 to 1029 followed by 122 rows of zeros), changes the float format of the four weight matrices
  (the identity on the extended reals), and views each gain, bias and scale vector as a one-row matrix. Read at an
  entry: the extended matrix is the matrix's own row below row 1030 and zero from there on; a reformatted matrix is
  the matrix; a one-row view at `(0, j)` is entry `j` of the vector.
-/
import proofs.«158063_j6562710028805_2_alg».proof.Proof.Gen.KernelIdeal.Frame
import proofs.«158063_j6562710028805_2_alg».proof.Proof.LibRowCast
import Idealize.ShloMosaic.Lib.StableHlo.Run
import Idealize.ShloMosaic.Lib.KernelVsHost
import Idealize.ShloMosaic.Lib.ValueLayout
import Idealize.ShloMosaic.Lib.Pipeline.Value
import Idealize.ShloMosaic.Lib.ValueIdx

noncomputable section

namespace Cert.KernelIdeal.HostIn

open Cert.KernelIdeal Cert.KernelIdeal.Gen Idealize.ShloMosaic Idealize.ShloMosaic.TcCoe Idealize.SL.Sem Idealize.ShloMosaic.ValueIdx Idealize.ShloMosaic.StableHlo

/-! ## The extended weight matrix -/

/-- The weight matrix of 1030 rows extended to 1152 rows: rows 0 to 1023, then rows 1024 to 1029 followed by 122 rows
    of the padding value. -/
def padded (W : Vec Ideal S1030x1536 .f32) : Vec Ideal S1152x1536 .f32 :=
  (concatenate S1152x1536 0
    [⟨S1024x1536, extractStridedSlice S1024x1536 ![0, 0] W slices_S1030x1536_S1024x1536_0_0⟩,
     ⟨S128x1536, pad S128x1536 ![0, 0] ![122, 0] ![0, 0]
        (extractStridedSlice S6x1536 ![1024, 0] W slices_S1030x1536_S6x1536_1024_0)
        (sitofp (F := Ideal) .f32 (constantI S_ 32 0#32)) pads_S6x1536_S128x1536_01220_000 h_S_⟩]
    concatenates_S1024x1536_S128x1536_S1152x1536_d0)

/-- The first 1024 rows of two arrays stacked along the rows are the first array's. -/
theorem stack_lo (A : Vec Ideal S1024x1536 .f32) (Bm : Vec Ideal S128x1536 .f32) (k : Fin 1152) (h1 : k.val < 1024) (j : Fin 1536) :
    concatenate S1152x1536 0 [⟨S1024x1536, A⟩, ⟨S128x1536, Bm⟩] concatenates_S1024x1536_S128x1536_S1152x1536_d0 (ix2 k j)
      = A (ix2 (⟨k.val, h1⟩ : Fin 1024) j) :=
  concatenate_pair_apply_left (t := S1152x1536) (s₁ := S1024x1536) (s₂ := S128x1536) (0 : Fin 2) A Bm
    concatenates_S1024x1536_S128x1536_S1152x1536_d0 (ix2 k j) rfl (ix2 (⟨k.val, h1⟩ : Fin 1024) j)
    (fun b => by match b with | ⟨0, _⟩ => rfl | ⟨1, _⟩ => rfl)

/-- The rows from 1024 on are the second array's, 1024 rows up. -/
theorem stack_hi (A : Vec Ideal S1024x1536 .f32) (Bm : Vec Ideal S128x1536 .f32) (k : Fin 1152) (h1 : 1024 ≤ k.val) (j : Fin 1536) :
    concatenate S1152x1536 0 [⟨S1024x1536, A⟩, ⟨S128x1536, Bm⟩] concatenates_S1024x1536_S128x1536_S1152x1536_d0 (ix2 k j)
      = Bm (ix2 (⟨k.val - 1024, by have := k.isLt; omega⟩ : Fin 128) j) :=
  concatenate_pair_apply_right (t := S1152x1536) (s₁ := S1024x1536) (s₂ := S128x1536) (0 : Fin 2) A Bm
    concatenates_S1024x1536_S128x1536_S1152x1536_d0 (ix2 k j) rfl rfl (ix2 (⟨k.val - 1024, by have := k.isLt; omega⟩ : Fin 128) j)
    (fun b hb => by match b with | ⟨0, _⟩ => exact absurd rfl hb | ⟨1, _⟩ => rfl)
    (by show k.val - 1024 + 1024 = k.val; omega)

/-- A row of the extended matrix below 1030 is the matrix's row. -/
theorem padded_lo (W : Vec Ideal S1030x1536 .f32) (k : Fin 1152) (hk : k.val < 1030) (j : Fin 1536) :
    padded W (ix2 k j) = W (ix2 ⟨k.val, hk⟩ j) := by
  unfold padded
  by_cases h1 : k.val < 1024
  · refine (stack_lo _ _ k h1 j).trans ?_
    exact slice2_axis0_apply 0 W slices_S1030x1536_S1024x1536_0_0 ⟨k.val, h1⟩ j ⟨k.val, hk⟩ (by show k.val = 0 + k.val; omega)
  · have h3 : k.val - 1024 < 6 := by omega
    refine (stack_hi _ _ k (by omega) j).trans ?_
    refine (pad_apply_of_inside (s := S6x1536) (t := S128x1536) ![0, 0] ![122, 0] ![0, 0] _ _ pads_S6x1536_S128x1536_01220_000 h_S_
      (ix2 (⟨k.val - 1024, by have := k.isLt; omega⟩ : Fin 128) j) (ix2 (⟨k.val - 1024, h3⟩ : Fin 6) j)
      (fun a => by match a with | ⟨0, _⟩ => (show k.val - 1024 = 0 + (k.val - 1024) * (0 + 1); omega) | ⟨1, _⟩ => (show j.val = 0 + j.val * (0 + 1); omega))).trans ?_
    exact slice2_axis0_apply 1024 W slices_S1030x1536_S6x1536_1024_0 ⟨k.val - 1024, h3⟩ j ⟨k.val, hk⟩ (by show k.val = 1024 + (k.val - 1024); omega)

/-- A row of the extended matrix from 1030 on is zero. -/
theorem padded_hi (W : Vec Ideal S1030x1536 .f32) (k : Fin 1152) (hk : 1030 ≤ k.val) (j : Fin 1536) :
    padded W (ix2 k j) = 0 := by
  unfold padded
  refine (stack_hi _ _ k (by omega) j).trans ?_
  refine (pad_apply_of_not_inside (s := S6x1536) (t := S128x1536) ![0, 0] ![122, 0] ![0, 0] _ _ pads_S6x1536_S128x1536_01220_000 h_S_
    (ix2 (⟨k.val - 1024, by have := k.isLt; omega⟩ : Fin 128) j) (0 : Fin 2) (fun h => by
      have h6 : (k.val - 1024 - 0) / (0 + 1) < 6 := h.2.2
      omega)).trans ?_
  show (((0#32 : BitVec 32).toInt : ℝ) : EReal) = 0
  rw [show (0#32 : BitVec 32).toInt = 0 from by decide, Int.cast_zero, EReal.coe_zero]

/-! ## The arrays as the region finds them -/

section
variable {F : FTy → Type} [FloatOps F]
variable (m : (ℓ : Loc nD τ sig) → Buf (Elt F) ℓ)

/-- The extended weight matrix in any float model (the format change kept). -/
def extended (W : Vec F S1030x1536 .f32) : Vec F S1152x1536 .bf16 :=
  truncf .bf16 (concatenate S1152x1536 0
    [⟨S1024x1536, extractStridedSlice S1024x1536 ![0, 0] W slices_S1030x1536_S1024x1536_0_0⟩,
     ⟨S128x1536, pad S128x1536 ![0, 0] ![122, 0] ![0, 0]
        (extractStridedSlice S6x1536 ![1024, 0] W slices_S1030x1536_S6x1536_1024_0)
        (sitofp .f32 (constantI S_ 32 0#32)) pads_S6x1536_S128x1536_01220_000 h_S_⟩]
    concatenates_S1024x1536_S128x1536_S1152x1536_d0) bitsLt_bf16_f32

theorem V_v4 (c : Dev nD) :
    (V m c main_v4 : Vec F S1152x1536 .bf16) = extended (m ((c : Thread nD τ).loc main_arg4) : Vec F S1030x1536 .f32) := by
  unfold extended
  dsimp only [V, V0]
  simp only [hostOps0, hostOps0_1, hostOps0_2, List.flatten_cons, List.flatten_nil, List.append_nil, List.cons_append, List.nil_append]
  after_results
  all_goals rfl

theorem V_v5 (c : Dev nD) :
    (V m c main_v5 : Vec F S512x1536 .bf16) = truncf .bf16 (m ((c : Thread nD τ).loc main_arg5) : Vec F S512x1536 .f32) bitsLt_bf16_f32 := by
  dsimp only [V, V0]
  simp only [hostOps0, hostOps0_1, hostOps0_2, List.flatten_cons, List.flatten_nil, List.append_nil, List.cons_append, List.nil_append]
  after_results
  all_goals rfl

theorem V_v6 (c : Dev nD) :
    (V m c main_v6 : Vec F S1024x512 .bf16) = truncf .bf16 (m ((c : Thread nD τ).loc main_arg10) : Vec F S1024x512 .f32) bitsLt_bf16_f32 := by
  dsimp only [V, V0]
  simp only [hostOps0, hostOps0_1, hostOps0_2, List.flatten_cons, List.flatten_nil, List.append_nil, List.cons_append, List.nil_append]
  after_results
  all_goals rfl

theorem V_v7 (c : Dev nD) :
    (V m c main_v7 : Vec F S512x1024 .bf16) = truncf .bf16 (m ((c : Thread nD τ).loc main_arg13) : Vec F S512x1024 .f32) bitsLt_bf16_f32 := by
  dsimp only [V, V0]
  simp only [hostOps0, hostOps0_1, hostOps0_2, List.flatten_cons, List.flatten_nil, List.append_nil, List.cons_append, List.nil_append]
  after_results
  all_goals rfl

theorem V_v8 (c : Dev nD) :
    (V m c main_v8 : Vec F S1x1536 .f32) = shapeCast S1x1536 (m ((c : Thread nD τ).loc main_arg6) : Vec F S1536 .f32) shapeCasts_S1536_S1x1536 := by
  dsimp only [V, V0]
  simp only [hostOps0, hostOps0_1, hostOps0_2, List.flatten_cons, List.flatten_nil, List.append_nil, List.cons_append, List.nil_append]
  after_results
  all_goals rfl

theorem V_v9 (c : Dev nD) :
    (V m c main_v9 : Vec F S1x1536 .f32) = shapeCast S1x1536 (m ((c : Thread nD τ).loc main_arg7) : Vec F S1536 .f32) shapeCasts_S1536_S1x1536 := by
  dsimp only [V, V0]
  simp only [hostOps0, hostOps0_1, hostOps0_2, List.flatten_cons, List.flatten_nil, List.append_nil, List.cons_append, List.nil_append]
  after_results
  all_goals rfl

theorem V_v10 (c : Dev nD) :
    (V m c main_v10 : Vec F S1x1536 .f32) = shapeCast S1x1536 (m ((c : Thread nD τ).loc main_arg8) : Vec F S1536 .f32) shapeCasts_S1536_S1x1536 := by
  dsimp only [V, V0]
  simp only [hostOps0, hostOps0_1, hostOps0_2, List.flatten_cons, List.flatten_nil, List.append_nil, List.cons_append, List.nil_append]
  after_results
  all_goals rfl

theorem V_v11 (c : Dev nD) :
    (V m c main_v11 : Vec F S1x1536 .f32) = shapeCast S1x1536 (m ((c : Thread nD τ).loc main_arg9) : Vec F S1536 .f32) shapeCasts_S1536_S1x1536 := by
  dsimp only [V, V0]
  simp only [hostOps0, hostOps0_1, hostOps0_2, List.flatten_cons, List.flatten_nil, List.append_nil, List.cons_append, List.nil_append]
  after_results
  all_goals rfl

theorem V_v12 (c : Dev nD) :
    (V m c main_v12 : Vec F S1x512 .f32) = shapeCast S1x512 (m ((c : Thread nD τ).loc main_arg11) : Vec F S512 .f32) shapeCasts_S512_S1x512 := by
  dsimp only [V, V0]
  simp only [hostOps0, hostOps0_1, hostOps0_2, List.flatten_cons, List.flatten_nil, List.append_nil, List.cons_append, List.nil_append]
  after_results
  all_goals rfl

theorem V_v13 (c : Dev nD) :
    (V m c main_v13 : Vec F S1x512 .f32) = shapeCast S1x512 (m ((c : Thread nD τ).loc main_arg12) : Vec F S512 .f32) shapeCasts_S512_S1x512 := by
  dsimp only [V, V0]
  simp only [hostOps0, hostOps0_1, hostOps0_2, List.flatten_cons, List.flatten_nil, List.append_nil, List.cons_append, List.nil_append]
  after_results
  all_goals rfl

theorem V_v14 (c : Dev nD) :
    (V m c main_v14 : Vec F S1x1024 .f32) = shapeCast S1x1024 (m ((c : Thread nD τ).loc main_arg14) : Vec F S1024 .f32) shapeCasts_S1024_S1x1024 := by
  dsimp only [V, V0]
  simp only [hostOps0, hostOps0_1, hostOps0_2, List.flatten_cons, List.flatten_nil, List.append_nil, List.cons_append, List.nil_append]
  after_results
  all_goals rfl

end

/-! ## Read at an entry, over the extended reals -/

section
variable (m : (ℓ : Loc nD τ sig) → Buf (Elt Ideal) ℓ)

/-- The extended weight matrix as the region finds it. -/
theorem v4_apply (c : Dev nD) (k : Fin 1152) (j : Fin 1536) :
    (V m c main_v4 : Vec Ideal S1152x1536 .bf16) (ix2 k j)
      = padded (m ((c : Thread nD τ).loc main_arg4) : Vec Ideal S1030x1536 .f32) (ix2 k j) :=
  (congrFun (V_v4 m c) (ix2 k j)).trans rfl

/-- The three reformatted weight matrices are the matrices. -/
theorem v5_eq (c : Dev nD) : (V m c main_v5 : Vec Ideal S512x1536 .bf16) = (m ((c : Thread nD τ).loc main_arg5) : Vec Ideal S512x1536 .f32) :=
  (V_v5 m c).trans rfl
theorem v6_eq (c : Dev nD) : (V m c main_v6 : Vec Ideal S1024x512 .bf16) = (m ((c : Thread nD τ).loc main_arg10) : Vec Ideal S1024x512 .f32) :=
  (V_v6 m c).trans rfl
theorem v7_eq (c : Dev nD) : (V m c main_v7 : Vec Ideal S512x1024 .bf16) = (m ((c : Thread nD τ).loc main_arg13) : Vec Ideal S512x1024 .f32) :=
  (V_v7 m c).trans rfl

/-- The one-row views of the gain, bias and scale vectors. -/
theorem v8_apply (c : Dev nD) (j : Fin 1536) :
    (V m c main_v8 : Vec Ideal S1x1536 .f32) (ix2 (0 : Fin 1) j) = (m ((c : Thread nD τ).loc main_arg6) : Vec Ideal S1536 .f32) (ix1 j) :=
  (congrFun (V_v8 m c) (ix2 (0 : Fin 1) j)).trans (Cert.RowCast.shapeCast_row_apply _ shapeCasts_S1536_S1x1536 0 j)
theorem v9_apply (c : Dev nD) (j : Fin 1536) :
    (V m c main_v9 : Vec Ideal S1x1536 .f32) (ix2 (0 : Fin 1) j) = (m ((c : Thread nD τ).loc main_arg7) : Vec Ideal S1536 .f32) (ix1 j) :=
  (congrFun (V_v9 m c) (ix2 (0 : Fin 1) j)).trans (Cert.RowCast.shapeCast_row_apply _ shapeCasts_S1536_S1x1536 0 j)
theorem v10_apply (c : Dev nD) (j : Fin 1536) :
    (V m c main_v10 : Vec Ideal S1x1536 .f32) (ix2 (0 : Fin 1) j) = (m ((c : Thread nD τ).loc main_arg8) : Vec Ideal S1536 .f32) (ix1 j) :=
  (congrFun (V_v10 m c) (ix2 (0 : Fin 1) j)).trans (Cert.RowCast.shapeCast_row_apply _ shapeCasts_S1536_S1x1536 0 j)
theorem v11_apply (c : Dev nD) (j : Fin 1536) :
    (V m c main_v11 : Vec Ideal S1x1536 .f32) (ix2 (0 : Fin 1) j) = (m ((c : Thread nD τ).loc main_arg9) : Vec Ideal S1536 .f32) (ix1 j) :=
  (congrFun (V_v11 m c) (ix2 (0 : Fin 1) j)).trans (Cert.RowCast.shapeCast_row_apply _ shapeCasts_S1536_S1x1536 0 j)
theorem v12_apply (c : Dev nD) (j : Fin 512) :
    (V m c main_v12 : Vec Ideal S1x512 .f32) (ix2 (0 : Fin 1) j) = (m ((c : Thread nD τ).loc main_arg11) : Vec Ideal S512 .f32) (ix1 j) :=
  (congrFun (V_v12 m c) (ix2 (0 : Fin 1) j)).trans (Cert.RowCast.shapeCast_row_apply _ shapeCasts_S512_S1x512 0 j)
theorem v13_apply (c : Dev nD) (j : Fin 512) :
    (V m c main_v13 : Vec Ideal S1x512 .f32) (ix2 (0 : Fin 1) j) = (m ((c : Thread nD τ).loc main_arg12) : Vec Ideal S512 .f32) (ix1 j) :=
  (congrFun (V_v13 m c) (ix2 (0 : Fin 1) j)).trans (Cert.RowCast.shapeCast_row_apply _ shapeCasts_S512_S1x512 0 j)
theorem v14_apply (c : Dev nD) (j : Fin 1024) :
    (V m c main_v14 : Vec Ideal S1x1024 .f32) (ix2 (0 : Fin 1) j) = (m ((c : Thread nD τ).loc main_arg14) : Vec Ideal S1024 .f32) (ix1 j) :=
  (congrFun (V_v14 m c) (ix2 (0 : Fin 1) j)).trans (Cert.RowCast.shapeCast_row_apply _ shapeCasts_S1024_S1x1024 0 j)
end

end Cert.KernelIdeal.HostIn

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«158063_j6562710028805_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.PayState.lean ====
/-
  The new state of the recurrent cell as the kernel computes it for one block of 512 batch rows, read at an entry.

  The kernel joins each row of the two inputs (1024 and 6 entries) with 122 zeros and multiplies by a [1152, 1536]
  matrix; it multiplies the previous state's row by a [512, 1536] matrix; it normalises each of the two [512, 1536]
  products along its rows (subtract the row mean, multiply by the reciprocal root of the row variance plus a small
  constant, scale by a gain row and add a bias row); it cuts each normalised array into three groups of 512 columns and
  applies the gates. Every step acts on one row at a time, so the entry (p, q) of the result is the new state of row p,
  the function `hidden` of the two pre-activation rows, at q (`state_apply`).

  The steps: a product read at an entry is a sum over the contraction index (`dot1152`, `dot512`); the three joined
  arrays read at (p, k) are the joined rows (`joined_apply`); the row sums cast to a column and divided by the word
  1536.0 are the row means (`meanCol_apply`); from these the centred array (`centredArr_apply`), the reciprocal
  deviation (`rstdCol_apply`) and the normalised row (`ln_row`); a group of 512 columns from column o reads the
  array at column o + q (`grp_slice`); and the gates at (p, q) are the gates on row p (`gatesArr_apply`).
-/
import proofs.«158063_j6562710028805_2_alg».proof.Proof.Gen.KernelIdeal.Skeleton
import proofs.«158063_j6562710028805_2_alg».proof.Proof.Spec
import proofs.«158063_j6562710028805_2_alg».proof.Proof.LibColumns
import proofs.«158063_j6562710028805_2_alg».proof.Proof.LibRowSum
import proofs.«158063_j6562710028805_2_alg».proof.Proof.LibRowBroadcast
import proofs.«158063_j6562710028805_2_alg».proof.Proof.LibDotRows
import Idealize.ShloMosaic.Lib.ValueLayout
import Idealize.ShloMosaic.Lib.Pipeline.Value
import Idealize.ShloMosaic.PureOps.Ideal.Laws

noncomputable section
namespace Cert.KernelIdeal.Pay
open Cert.KernelIdeal Cert.KernelIdeal.Gen Idealize.ShloMosaic Idealize.ShloMosaic.ValueIdx Cert.Cell

/-- The kernel's joined input row: the row of `x1`, the row of `x2`, then 122 copies of the 16-bit zero word. -/
def ginPad (x1 : Vec Ideal S512x1024 .f32) (x2 : Vec Ideal S512x6 .f32) (p : Fin 512) : Fin 1152 → EReal :=
  cat2 (n := 1152) (a := 1030) (b := 122) rfl (cat2 (n := 1030) (a := 1024) (b := 6) rfl (row x1 p) (row x2 p))
    (fun _ => Ideal.ofBits .bf16 0x0000#16)

/-! ## The two matrix products

A contraction of the left operand's second axis with the right operand's first axis, into the zero accumulator, read at
`(p, q)`, is the sum over `k` of left `(p, k)` times right `(k, q)`. -/

/-- A `[512, 1152] · [1152, 1536]` product into the zero accumulator, read at `(p, q)`. -/
theorem dot1152 (l : FVec Ideal S512x1152 .bf16) (r : FVec Ideal S1152x1536 .bf16) (p : Fin 512) (q : Fin 1536) :
    matmul dot_S512x1152_S1152x1536_S512x1536_1_0_0_1_n_n none l r (constant (F := Ideal) S512x1536 .f32 0x00000000#32) (ix2 p q)
      = ∑ k : Fin 1152, l (ix2 p k) * r (ix2 k q) := by
  refine (Ideal.matmul_constant_zero_apply _ none l r (ix2 p q)).trans ?_
  dot_rows dot_S512x1152_S1152x1536_S512x1536_1_0_0_1_n_n S512x1152 S1152x1536 1152

/-- A `[512, 512] · [512, 1536]` product into the zero accumulator, read at `(p, q)`. -/
theorem dot512 (l : FVec Ideal S512x512 .bf16) (r : FVec Ideal S512x1536 .bf16) (p : Fin 512) (q : Fin 1536) :
    matmul dot_S512x512_S512x1536_S512x1536_1_0_0_1_n_n none l r (constant (F := Ideal) S512x1536 .f32 0x00000000#32) (ix2 p q)
      = ∑ k : Fin 512, l (ix2 p k) * r (ix2 k q) := by
  refine (Ideal.matmul_constant_zero_apply _ none l r (ix2 p q)).trans ?_
  dot_rows dot_S512x512_S512x1536_S512x1536_1_0_0_1_n_n S512x512 S512x1536 512

/-! ## Two rows joined end to end -/

/-- Below the first row's length the joined row reads the first row. -/
theorem cat2_lt {a b n : ℕ} (hn : n = a + b) (x : Fin a → EReal) (y : Fin b → EReal) (k : Fin n) (h : k.val < a) :
    cat2 hn x y k = x ⟨k.val, h⟩ := dif_pos h

/-- From the first row's length on it reads the second row, the first row's length less. -/
theorem cat2_ge {a b n : ℕ} (hn : n = a + b) (x : Fin a → EReal) (y : Fin b → EReal) (k : Fin n) (h : ¬k.val < a) :
    cat2 hn x y k = y ⟨k.val - a, by have := k.isLt; omega⟩ := dif_neg h

/-- Three arrays of 1024, 6 and 122 columns joined along the columns, read at `(p, k)`: row `p` of the first, then of
    the second, then of the third. -/
theorem joined_apply (a : S512x1024.Idx → EReal) (b : S512x6.Idx → EReal) (c : S512x122.Idx → EReal) (p : Fin 512)
    (k : Fin 1152) :
    concatenate S512x1152 1 [⟨S512x1024, a⟩, ⟨S512x6, b⟩, ⟨S512x122, c⟩]
        concatenates_S512x1024_S512x6_S512x122_S512x1152_d1 (ix2 p k)
      = cat2 (n := 1152) (a := 1030) (b := 122) rfl (cat2 (n := 1030) (a := 1024) (b := 6) rfl (row a p) (row b p))
          (row c p) k := by
  by_cases h1 : k.val < 1024
  · have h2 : k.val < 1030 := by omega
    rw [cat2_lt _ _ _ k h2, cat2_lt _ _ _ (⟨k.val, h2⟩ : Fin 1030) h1]
    refine concatenate_apply_piece 1 _ _ (ix2 p k) 0 (by show (0 : ℕ) < 3; omega) S512x1024 a rfl rfl 0 rfl
      (ix2 p (⟨k.val, h1⟩ : Fin 1024)) (fun d hd => ?_) (Nat.zero_add _)
    match d with
    | ⟨0, _⟩ => rfl
    | ⟨1, _⟩ => exact absurd rfl hd
  · by_cases h2 : k.val < 1030
    · have h3 : k.val - 1024 < 6 := by omega
      rw [cat2_lt _ _ _ k h2, cat2_ge _ _ _ (⟨k.val, h2⟩ : Fin 1030) h1]
      refine concatenate_apply_piece 1 _ _ (ix2 p k) 1 (by show (1 : ℕ) < 3; omega) S512x6 b rfl rfl 1024 rfl
        (ix2 p (⟨k.val - 1024, h3⟩ : Fin 6)) (fun d hd => ?_) (by show 1024 + (k.val - 1024) = k.val; omega)
      match d with
      | ⟨0, _⟩ => rfl
      | ⟨1, _⟩ => exact absurd rfl hd
    · have h3 : k.val - 1030 < 122 := by have := k.isLt; omega
      rw [cat2_ge _ _ _ k h2]
      refine concatenate_apply_piece 1 _ _ (ix2 p k) 2 (by show (2 : ℕ) < 3; omega) S512x122 c rfl rfl 1030 rfl
        (ix2 p (⟨k.val - 1030, h3⟩ : Fin 122)) (fun d hd => ?_) (by show 1030 + (k.val - 1030) = k.val; omega)
      match d with
      | ⟨0, _⟩ => rfl
      | ⟨1, _⟩ => exact absurd rfl hd

/-! ## The two pre-activations -/

/-- The first product at `(p, j)`: the joined and padded input row times the weight matrix. -/
theorem pay2_apply (x1 : Vec Ideal S512x1024 .f32) (x2 : Vec Ideal S512x6 .f32) (x4 : Vec Ideal S1152x1536 .bf16)
    (p : Fin 512) (j : Fin 1536) :
    k0_pay2 (F := Ideal) x1 x2 x4 (ix2 p j) = rowDot (ginPad x1 x2 p) (mat x4) j := by
  unfold k0_pay2
  refine (dot1152 _ _ p j).trans ?_
  unfold rowDot
  refine Finset.sum_congr rfl fun k _ => ?_
  rw [shapeCast_self, joined_apply]
  rfl

/-- The second product at `(p, j)`: the previous state's row times the weight matrix. -/
theorem pay3_apply (x0 : Vec Ideal S512x512 .f32) (x5 : Vec Ideal S512x1536 .bf16) (p : Fin 512) (j : Fin 1536) :
    k0_pay3 (F := Ideal) x0 x5 (ix2 p j) = rowDot (row x0 p) (mat x5) j := by
  unfold k0_pay3
  refine (dot512 _ _ p j).trans ?_
  unfold rowDot
  refine Finset.sum_congr rfl fun k _ => ?_
  rw [shapeCast_self]
  rfl

/-! ## The row mean, the centred array and the reciprocal deviation, as the program spells them -/

/-- The row means of a `[512, 1536]` array kept as a column: the row sums, cast to a column, divided by the word
    `1536.0`. -/
def meanCol (v : FVec Ideal S512x1536 .f32) : FVec Ideal S512x1 .f32 :=
  divf (shapeCast S512x1 (multiReduction .add [1] S512 v 0x00000000#32 reduces_S512x1536_S512 (.inl rfl) rfl)
    shapeCasts_S512_S512x1) (broadcast S512x1 (Scalar.ofBits (F := Ideal) .f32 0x44C00000#32))

/-- Its entry in row `p` is the mean of row `p`. -/
theorem meanCol_apply (v : FVec Ideal S512x1536 .f32) (p : Fin 512) (u : Fin 1) :
    meanCol v (ix2 p u) = rowMean w1536 (row v p) := by
  unfold meanCol
  show Ideal.div (shapeCast S512x1 (multiReduction .add [1] S512 v 0x00000000#32 reduces_S512x1536_S512 (.inl rfl) rfl)
    shapeCasts_S512_S512x1 (ix2 p u)) w1536 = _
  rw [Cert.Columns.shapeCast_a_a1_apply]
  exact congrArg (fun s => Ideal.div s w1536)
    (Cert.RowSum.multiReduction_add_row v 0x00000000#32 reduces_S512x1536_S512 (.inl rfl) rfl p)

/-- An array less its row means (the mean column broadcast along the rows). -/
def centredArr (v : FVec Ideal S512x1536 .f32) : FVec Ideal S512x1536 .f32 :=
  subf v (broadcastTo S512x1536 (meanCol v) broadcasts_S512x1_S512x1536)

/-- Its entry `(p, j)` is entry `j` of row `p` less that row's mean. -/
theorem centredArr_apply (v : FVec Ideal S512x1536 .f32) (p : Fin 512) (j : Fin 1536) :
    centredArr v (ix2 p j) = centred w1536 (row v p) j := by
  unfold centredArr
  rw [subf_apply, Cert.Columns.broadcastTo_a1_ab_apply, meanCol_apply]
  rfl

/-- The reciprocal root of the row variances plus the small constant, kept as a column. -/
def rstdCol (v : FVec Ideal S512x1536 .f32) : FVec Ideal S512x1 .f32 :=
  rsqrt (addf (meanCol (mulf (centredArr v) (centredArr v)))
    (broadcast S512x1 (Scalar.ofBits (F := Ideal) .f32 0x3727C5AC#32)))

/-- Its entry in row `p`. -/
theorem rstdCol_apply (v : FVec Ideal S512x1536 .f32) (p : Fin 512) (u : Fin 1) :
    rstdCol v (ix2 p u)
      = Ideal.rsqrt (rowMean w1536 (fun k => centred w1536 (row v p) k * centred w1536 (row v p) k) + wEpsLn) := by
  unfold rstdCol
  show Ideal.rsqrt (meanCol (mulf (centredArr v) (centredArr v)) (ix2 p u) + wEpsLn) = _
  rw [meanCol_apply]
  have hrow : row (mulf (centredArr v) (centredArr v)) p
      = fun k => centred w1536 (row v p) k * centred w1536 (row v p) k := funext fun k => by
    show centredArr v (ix2 p k) * centredArr v (ix2 p k) = _
    rw [centredArr_apply]
  rw [hrow]

/-- The end of a normalisation: a centred array times a column broadcast along the rows, times a gain row and plus a
    bias row broadcast down the columns. -/
def normTail (c : FVec Ideal S512x1536 .f32) (s : FVec Ideal S512x1 .f32) (g b : FVec Ideal S1x1536 .f32) :
    FVec Ideal S512x1536 .f32 :=
  addf (mulf (mulf c (broadcastTo S512x1536 s broadcasts_S512x1_S512x1536))
    (broadcastTo S512x1536 g broadcasts_S1x1536_S512x1536)) (broadcastTo S512x1536 b broadcasts_S1x1536_S512x1536)

/-- Its entry `(p, j)`. -/
theorem normTail_apply (c : FVec Ideal S512x1536 .f32) (s : FVec Ideal S512x1 .f32) (g b : FVec Ideal S1x1536 .f32)
    (p : Fin 512) (j : Fin 1536) :
    normTail c s g b (ix2 p j) = c (ix2 p j) * s (ix2 p (0 : Fin 1)) * g (ix2 (0 : Fin 1) j) + b (ix2 (0 : Fin 1) j) := by
  unfold normTail
  rw [addf_apply, mulf_apply, mulf_apply, Cert.Columns.broadcastTo_a1_ab_apply,
    Cert.RowBroadcast.broadcastTo_1b_ab_apply, Cert.RowBroadcast.broadcastTo_1b_ab_apply]

/-- Row `p` of a normalised array is the layer normalisation of row `p`. -/
theorem ln_row (v : FVec Ideal S512x1536 .f32) (g b : FVec Ideal S1x1536 .f32) (p : Fin 512) :
    row (normTail (centredArr v) (rstdCol v) g b) p = layerNorm w1536 wEpsLn (row v p) (row g 0) (row b 0) :=
  funext fun j => by
    show normTail (centredArr v) (rstdCol v) g b (ix2 p j) = _
    rw [normTail_apply, centredArr_apply, rstdCol_apply]
    rfl

/-! ## The three groups of 512 columns and the gates -/

/-- The group of 512 columns from column `o`, read at `(p, q)`, is the array at `(p, o + q)`. -/
theorem grp_slice (o : ℕ) (ho : o + 512 ≤ 1536) (X : FVec Ideal S512x1536 .f32) (h : S512x1536.Slices ![0, o] S512x512)
    (p q : Fin 512) : extractStridedSlice S512x512 ![0, o] X h (ix2 p q) = X (ix2 p (grp o ho q)) :=
  slice2_axis1_eq o X h p q

/-- The gates as the program spells them on two normalised arrays and the previous state. -/
def gatesArr (ih hh : FVec Ideal S512x1536 .f32) (ph : FVec Ideal S512x512 .f32) : FVec Ideal S512x512 .f32 :=
  addf
    (mulf
      (subf (broadcast S512x512 (Scalar.ofBits (F := Ideal) .f32 0x3F800000#32))
        (logistic (addf (extractStridedSlice S512x512 ![0, 512] ih slices_S512x1536_o0_512_S512x512)
          (extractStridedSlice S512x512 ![0, 512] hh slices_S512x1536_o0_512_S512x512))))
      (tanh (addf (extractStridedSlice S512x512 ![0, 1024] ih slices_S512x1536_o0_1024_S512x512)
        (mulf
          (logistic (addf (extractStridedSlice S512x512 ![0, 0] ih slices_S512x1536_o0_0_S512x512)
            (extractStridedSlice S512x512 ![0, 0] hh slices_S512x1536_o0_0_S512x512)))
          (extractStridedSlice S512x512 ![0, 1024] hh slices_S512x1536_o0_1024_S512x512)))))
    (mulf
      (logistic (addf (extractStridedSlice S512x512 ![0, 512] ih slices_S512x1536_o0_512_S512x512)
        (extractStridedSlice S512x512 ![0, 512] hh slices_S512x1536_o0_512_S512x512)))
      ph)

/-- At `(p, q)` they are the gates on the two rows `p` and the previous state's row `p`. -/
theorem gatesArr_apply (ih hh : FVec Ideal S512x1536 .f32) (ph : FVec Ideal S512x512 .f32) (p q : Fin 512) :
    gatesArr ih hh ph (ix2 p q) = gate (row ih p) (row hh p) (row ph p) q := by
  unfold gatesArr gate
  show (wOne - Ideal.logistic
          (extractStridedSlice S512x512 ![0, 512] ih slices_S512x1536_o0_512_S512x512 (ix2 p q)
            + extractStridedSlice S512x512 ![0, 512] hh slices_S512x1536_o0_512_S512x512 (ix2 p q)))
        * Ideal.tanh
          (extractStridedSlice S512x512 ![0, 1024] ih slices_S512x1536_o0_1024_S512x512 (ix2 p q)
            + Ideal.logistic
                (extractStridedSlice S512x512 ![0, 0] ih slices_S512x1536_o0_0_S512x512 (ix2 p q)
                  + extractStridedSlice S512x512 ![0, 0] hh slices_S512x1536_o0_0_S512x512 (ix2 p q))
              * extractStridedSlice S512x512 ![0, 1024] hh slices_S512x1536_o0_1024_S512x512 (ix2 p q))
      + Ideal.logistic
          (extractStridedSlice S512x512 ![0, 512] ih slices_S512x1536_o0_512_S512x512 (ix2 p q)
            + extractStridedSlice S512x512 ![0, 512] hh slices_S512x1536_o0_512_S512x512 (ix2 p q))
        * ph (ix2 p q) = _
  rw [grp_slice 512 (by decide) ih, grp_slice 512 (by decide) hh, grp_slice 1024 (by decide) ih,
    grp_slice 1024 (by decide) hh, grp_slice 0 (by decide) ih, grp_slice 0 (by decide) hh]
  rfl

/-! ## The new state at an entry -/

/-- The first payload's centred array is that of the first product. -/
theorem pay7_eq (x1 : Vec Ideal S512x1024 .f32) (x2 : Vec Ideal S512x6 .f32) (x4 : Vec Ideal S1152x1536 .bf16) :
    k0_pay7 (F := Ideal) x1 x2 x4 = centredArr (k0_pay2 (F := Ideal) x1 x2 x4) := rfl

/-- The first payload's reciprocal deviation is that of the first product. -/
theorem pay8_eq (x1 : Vec Ideal S512x1024 .f32) (x2 : Vec Ideal S512x6 .f32) (x4 : Vec Ideal S1152x1536 .bf16) :
    k0_pay8 (F := Ideal) x1 x2 x4 = rstdCol (k0_pay2 (F := Ideal) x1 x2 x4) := rfl

/-- The last payload: the gates on the first normalisation's tail and on the second product normalised in full. -/
theorem pay9_eq (x0 : Vec Ideal S512x512 .f32) (v14 : FVec Ideal S512x1536 .f32) (v16 v18 : FVec Ideal S1x1536 .f32)
    (v31 : FVec Ideal S512x1536 .f32) (v34 : FVec Ideal S512x1 .f32) (x8 x9 : Vec Ideal S1x1536 .f32) :
    k0_pay9 (F := Ideal) x0 v14 v16 v18 v31 v34 x8 x9
      = gatesArr (normTail v31 v34 v16 v18)
          (normTail (centredArr v14) (rstdCol v14) (shapeCast S1x1536 x8 shapeCasts_S1x1536_S1x1536)
            (shapeCast S1x1536 x9 shapeCasts_S1x1536_S1x1536)) x0 := rfl

/-- Entry `(p, q)` of the kernel's new state is entry `q` of the new state of row `p`: `hidden` of the padded input row
    times the first matrix, the previous state's row times the second, the four gain and bias rows and the previous
    state's row. -/
theorem state_apply (x0 : Vec Ideal S512x512 .f32) (x1 : Vec Ideal S512x1024 .f32) (x2 : Vec Ideal S512x6 .f32)
    (x4 : Vec Ideal S1152x1536 .bf16) (x5 : Vec Ideal S512x1536 .bf16) (x6 x7 x8 x9 : Vec Ideal S1x1536 .f32) (p q : Fin 512) :
    k0_pay9 (F := Ideal) x0 (k0_pay3 x0 x5) (k0_pay4 x6) (k0_pay5 x7) (k0_pay7 x1 x2 x4) (k0_pay8 x1 x2 x4) x8 x9 (ix2 p q)
      = hidden (rowDot (ginPad x1 x2 p) (mat x4)) (rowDot (row x0 p) (mat x5)) (row x6 0) (row x7 0) (row x8 0) (row x9 0) (row x0 p) q := by
  have e4 : k0_pay4 (F := Ideal) x6 = x6 := shapeCast_self x6 shapeCasts_S1x1536_S1x1536
  have e5 : k0_pay5 (F := Ideal) x7 = x7 := shapeCast_self x7 shapeCasts_S1x1536_S1x1536
  have h2 : row (k0_pay2 (F := Ideal) x1 x2 x4) p = rowDot (ginPad x1 x2 p) (mat x4) :=
    funext fun j => pay2_apply x1 x2 x4 p j
  have h3 : row (k0_pay3 (F := Ideal) x0 x5) p = rowDot (row x0 p) (mat x5) :=
    funext fun j => pay3_apply x0 x5 p j
  rw [pay9_eq, gatesArr_apply, pay7_eq, pay8_eq, e4, e5, shapeCast_self x8, shapeCast_self x9, ln_row, ln_row, h2, h3]
  rfl

end Cert.KernelIdeal.Pay
end
-- ==== Proof.PayHead.lean ====
/-
  The read-out head of one block of 512 batch rows, read at an entry.

  The block joins each row's new state (512 entries) and its embedding (512 entries) into a row of 1024 entries,
  multiplies by a 1024 x 512 matrix, adds a bias, divides each row by the root of its mean square plus a small
  constant, scales, applies x * logistic x, multiplies by a 512 x 1024 matrix and adds a second bias. Every step
  keeps the rows apart: entry (p, q) of the result depends on row p of the two inputs only, and is the head of
  that one row as the specification states it.
-/
import proofs.«158063_j6562710028805_2_alg».proof.Proof.Gen.KernelIdeal.Skeleton
import proofs.«158063_j6562710028805_2_alg».proof.Proof.Spec
import proofs.«158063_j6562710028805_2_alg».proof.Proof.LibColumns
import proofs.«158063_j6562710028805_2_alg».proof.Proof.LibRowSum
import proofs.«158063_j6562710028805_2_alg».proof.Proof.LibRowBroadcast
import proofs.«158063_j6562710028805_2_alg».proof.Proof.LibDotRows
import Idealize.ShloMosaic.Lib.Pipeline.Value
import Idealize.ShloMosaic.Lib.ValueIdx
import Idealize.ShloMosaic.PureOps.Ideal.Laws

noncomputable section
namespace Cert.KernelIdeal.PayHead
open Cert.KernelIdeal Cert.KernelIdeal.Gen Idealize.ShloMosaic Idealize.ShloMosaic.ValueIdx Cert.Cell

/-! ## The two matrix products, read at an entry -/

/-- The first product, `[512, 1024] · [1024, 512]` into a zero accumulator: entry `(p, q)` is the sum over `k` of
    the left operand's `(p, k)` times the right operand's `(k, q)`. -/
theorem matmul_in_apply (l : FVec Ideal S512x1024 .bf16) (r : FVec Ideal S1024x512 .bf16) (p q : Fin 512) :
    matmul dot_S512x1024_S1024x512_S512x512_1_0_0_1_n_n none l r (constant (F := Ideal) S512x512 .f32 0x00000000#32) (ix2 p q)
      = ∑ k : Fin 1024, l (ix2 p k) * r (ix2 k q) := by
  refine (Ideal.matmul_constant_zero_apply dot_S512x1024_S1024x512_S512x512_1_0_0_1_n_n none l r (ix2 p q)).trans ?_
  dot_rows dot_S512x1024_S1024x512_S512x512_1_0_0_1_n_n S512x1024 S1024x512 1024

/-- The second product, `[512, 512] · [512, 1024]` into a zero accumulator, likewise. -/
theorem matmul_out_apply (l : FVec Ideal S512x512 .bf16) (r : FVec Ideal S512x1024 .bf16) (p : Fin 512) (q : Fin 1024) :
    matmul dot_S512x512_S512x1024_S512x1024_1_0_0_1_n_n none l r (constant (F := Ideal) S512x1024 .f32 0x00000000#32) (ix2 p q)
      = ∑ k : Fin 512, l (ix2 p k) * r (ix2 k q) := by
  refine (Ideal.matmul_constant_zero_apply dot_S512x512_S512x1024_S512x1024_1_0_0_1_n_n none l r (ix2 p q)).trans ?_
  dot_rows dot_S512x512_S512x1024_S512x1024_1_0_0_1_n_n S512x512 S512x1024 512

/-! ## The joined row -/

/-- Two `[512, 512]` arrays joined along the second axis, read at `(p, k)`: row `p` of the first followed by
    row `p` of the second. -/
theorem join_apply (x1 x2 : FVec Ideal S512x512 .f32) (p : Fin 512) (k : Fin 1024) :
    concatenate S512x1024 1 [⟨S512x512, x1⟩, ⟨S512x512, x2⟩] concatenates_S512x512_S512x512_S512x1024_d1 (ix2 p k)
      = cat2 (n := 1024) (a := 512) (b := 512) rfl (row x1 p) (row x2 p) k := by
  unfold cat2
  by_cases h : k.val < 512
  · rw [dif_pos h]
    exact concatenate_pair_apply_left 1 x1 x2 _ (ix2 p k) rfl (ix2 p (⟨k.val, h⟩ : Fin 512)) (fun b => by
      match b with
      | ⟨0, _⟩ => rfl
      | ⟨1, _⟩ => rfl)
  · rw [dif_neg h]
    have hk : k.val - 512 < 512 := by have := k.isLt; omega
    exact concatenate_pair_apply_right 1 x1 x2 _ (ix2 p k) rfl rfl (ix2 p (⟨k.val - 512, hk⟩ : Fin 512)) (fun b hb => by
      match b, hb with
      | ⟨0, _⟩, _ => rfl
      | ⟨1, _⟩, hb => exact absurd rfl hb) (by
      show (k.val - 512) + 512 = k.val
      omega)

/-! ## The three stages of the block -/

/-- The first layer on the block: the joined rows times the first matrix, plus the bias row. -/
def hid (v3 : Vec Ideal S512x512 .f32) (v84 : FVec Ideal S512x512 .f32) (v88 : Vec Ideal S1024x512 .bf16)
    (v91 : Vec Ideal S1x512 .f32) : FVec Ideal S512x512 .f32 :=
  addf
    (matmul dot_S512x1024_S1024x512_S512x512_1_0_0_1_n_n none
      (truncf .bf16 (concatenate S512x1024 1 [⟨S512x512, v84⟩, ⟨S512x512, v3⟩] concatenates_S512x512_S512x512_S512x1024_d1)
        bitsLt_bf16_f32)
      (shapeCast S1024x512 v88 shapeCasts_S1024x512_S1024x512 : FVec Ideal S1024x512 .bf16)
      (constant (F := Ideal) S512x512 .f32 0x00000000#32))
    (broadcastTo S512x512 (shapeCast S1x512 v91 shapeCasts_S1x512_S1x512) broadcasts_S1x512_S512x512)

/-- One over the root of each row's mean square plus the small constant, repeated along the row. -/
def invRms (u : FVec Ideal S512x512 .f32) : FVec Ideal S512x512 .f32 :=
  broadcastTo S512x512
    (rsqrt (addf
      (divf
        (shapeCast S512x1
          (multiReduction .add [1] S512 (mulf u u) 0x00000000#32 reduces_S512x512_S512 (.inl rfl) rfl)
          shapeCasts_S512_S512x1)
        (broadcast S512x1 (Scalar.ofBits (F := Ideal) .f32 0x44000000#32)))
      (broadcast S512x1 (Scalar.ofBits (F := Ideal) .f32 0x322BCC77#32))))
    broadcasts_S512x1_S512x512

/-- The block divided row by row by the root of its mean square, then scaled by the scale row. -/
def normed (u : FVec Ideal S512x512 .f32) (v105 : Vec Ideal S1x512 .f32) : FVec Ideal S512x512 .f32 :=
  mulf (mulf u (invRms u))
    (broadcastTo S512x512 (shapeCast S1x512 v105 shapeCasts_S1x512_S1x512) broadcasts_S1x512_S512x512)

/-- The second layer on the block: `x · logistic x` of every entry, times the second matrix, plus the bias row. -/
def out (w : FVec Ideal S512x512 .f32) (v112 : Vec Ideal S512x1024 .bf16) (v115 : Vec Ideal S1x1024 .f32) :
    FVec Ideal S512x1024 .f32 :=
  addf
    (matmul dot_S512x512_S512x1024_S512x1024_1_0_0_1_n_n none
      (truncf .bf16 (mulf w (logistic w)) bitsLt_bf16_f32)
      (shapeCast S512x1024 v112 shapeCasts_S512x1024_S512x1024 : FVec Ideal S512x1024 .bf16)
      (constant (F := Ideal) S512x1024 .f32 0x00000000#32))
    (broadcastTo S512x1024 (shapeCast S1x1024 v115 shapeCasts_S1x1024_S1x1024) broadcasts_S1x1024_S512x1024)

/-- The payload is the three stages one after the other (its operations, in order, are theirs). -/
theorem pay_eq (v3 : Vec Ideal S512x512 .f32) (v84 : FVec Ideal S512x512 .f32) (v88 : Vec Ideal S1024x512 .bf16)
    (v91 v105 : Vec Ideal S1x512 .f32) (v112 : Vec Ideal S512x1024 .bf16) (v115 : Vec Ideal S1x1024 .f32) :
    k0_pay1 (F := Ideal) v3 v84 v88 v91 v105 v112 v115 = out (normed (hid v3 v84 v88 v91) v105) v112 v115 := rfl

/-- The first layer at `(p, j)`: the first layer of row `p`'s joined input. -/
theorem hid_apply (v3 : Vec Ideal S512x512 .f32) (v84 : FVec Ideal S512x512 .f32) (v88 : Vec Ideal S1024x512 .bf16)
    (v91 : Vec Ideal S1x512 .f32) (p j : Fin 512) :
    hid v3 v84 v88 v91 (ix2 p j)
      = pre (cat2 (n := 1024) (a := 512) (b := 512) rfl (row v84 p) (row v3 p)) (mat v88) (row v91 0) j := by
  unfold hid pre
  rw [addf_apply]
  refine congrArg₂ (· + ·) ?_ ?_
  · rw [shapeCast_self]
    refine (matmul_in_apply _ _ p j).trans ?_
    unfold rowDot
    refine Finset.sum_congr rfl fun k _ => ?_
    refine congrArg (· * mat v88 k j) ?_
    exact join_apply v84 v3 p k
  · rw [shapeCast_self]
    exact Cert.RowBroadcast.broadcastTo_1b_ab_apply v91 broadcasts_S1x512_S512x512 p j

/-- One over the root of the mean square at `(p, j)`: that of row `p`, whatever `j`. -/
theorem invRms_apply (u : FVec Ideal S512x512 .f32) (p j : Fin 512) :
    invRms u (ix2 p j) = Ideal.rsqrt (rowMean w512 (fun k => u (ix2 p k) * u (ix2 p k)) + wEpsRms) := by
  unfold invRms
  refine (Cert.Columns.broadcastTo_a1_ab_apply _ broadcasts_S512x1_S512x512 p j).trans ?_
  show Ideal.rsqrt (Ideal.div (shapeCast S512x1
      (multiReduction .add [1] S512 (mulf u u) 0x00000000#32 reduces_S512x512_S512 (.inl rfl) rfl)
      shapeCasts_S512_S512x1 (ix2 p (0 : Fin 1))) w512 + wEpsRms) = _
  refine congrArg (fun x => Ideal.rsqrt (Ideal.div x w512 + wEpsRms)) ?_
  refine (Cert.Columns.shapeCast_a_a1_apply _ shapeCasts_S512_S512x1 p 0).trans ?_
  exact Cert.RowSum.multiReduction_add_row (mulf u u) 0x00000000#32 reduces_S512x512_S512 (.inl rfl) rfl p

/-- The normalised block at `(p, j)`: row `p` divided by the root of its mean square, scaled. -/
theorem normed_apply (u : FVec Ideal S512x512 .f32) (v105 : Vec Ideal S1x512 .f32) (p j : Fin 512) :
    normed u v105 (ix2 p j) = rmsNorm (fun k => u (ix2 p k)) (row v105 0) j := by
  unfold normed rmsNorm
  rw [mulf_apply, mulf_apply, invRms_apply, shapeCast_self]
  exact congrArg (u (ix2 p j) * Ideal.rsqrt (rowMean w512 (fun k => u (ix2 p k) * u (ix2 p k)) + wEpsRms) * ·)
    (Cert.RowBroadcast.broadcastTo_1b_ab_apply v105 broadcasts_S1x512_S512x512 p j)

/-- The second layer at `(p, q)`: row `p` under `x · logistic x`, times the second matrix, plus the bias. -/
theorem out_apply (w : FVec Ideal S512x512 .f32) (v112 : Vec Ideal S512x1024 .bf16) (v115 : Vec Ideal S1x1024 .f32)
    (p : Fin 512) (q : Fin 1024) :
    out w v112 v115 (ix2 p q) = rowDot (fun k => silu (w (ix2 p k))) (mat v112) q + row v115 0 q := by
  unfold out
  rw [addf_apply]
  refine congrArg₂ (· + ·) ?_ ?_
  · rw [shapeCast_self]
    exact matmul_out_apply _ _ p q
  · rw [shapeCast_self]
    exact Cert.RowBroadcast.broadcastTo_1b_ab_apply v115 broadcasts_S1x1024_S512x1024 p q

/-! ## The head at an entry -/

theorem head_apply (v3 : Vec Ideal S512x512 .f32) (v84 : FVec Ideal S512x512 .f32) (v88 : Vec Ideal S1024x512 .bf16)
    (v91 v105 : Vec Ideal S1x512 .f32) (v112 : Vec Ideal S512x1024 .bf16) (v115 : Vec Ideal S1x1024 .f32) (p : Fin 512) (q : Fin 1024) :
    k0_pay1 (F := Ideal) v3 v84 v88 v91 v105 v112 v115 (ix2 p q)
      = logits (cat2 (n := 1024) (a := 512) (b := 512) rfl (row v84 p) (row v3 p)) (mat v88) (row v91 0) (row v105 0) (mat v112) (row v115 0) q := by
  rw [pay_eq, out_apply]
  unfold logits
  refine congrArg (· + row v115 0 q) ?_
  refine congrArg (fun f => rowDot f (mat v112) q) (funext fun k => congrArg silu ?_)
  refine (normed_apply _ v105 p k).trans ?_
  exact congrArg (fun u => rmsNorm u (row v105 0) k) (funext fun i => hid_apply v3 v84 v88 v91 p i)

end Cert.KernelIdeal.PayHead
end
-- ==== Proof.Cover.lean ====
/-
  The two output windows tile their arrays by rows.

  The grid has 32 points. At point `t` each output window holds rows `512 t` to `512 t + 511` of its array, all
  columns, so entry `(p, q)` of the block is entry `(512 t + p, q)` of the array; and since both windows are written
  back at every point, every entry `(r, q)` of either array lies in a block that is written back: the block of
  point `⌊r / 512⌋`.
-/
import proofs.«158063_j6562710028805_2_alg».proof.Proof.Blocks

noncomputable section

namespace Cert.KernelIdeal.Cover

open Cert.KernelIdeal Cert.KernelIdeal.Gen Cert.KernelIdeal.Blocks Idealize.ShloMosaic Idealize.ShloMosaic.ValueIdx

/-- Entry `(p, q)` of the block of output window 15 at point `t` is entry `(512 t + p, q)` of the array. -/
theorem emb15 (t : Fin cfg0.N) (p : Fin 512) (q : Fin 512) :
    ((cfg0.win 15).blk t).view.emb (ix2 p q : S512x512.Idx) = (ix2 (grow t p) q : S16384x512.Idx) := by
  obtain ⟨-, -, -, -, -, -, -, -, e0, e1, -⟩ := idx_rows t
  funext a
  apply Fin.ext
  match a with
  | ⟨0, _⟩ => show win0_15.index t 0 * 512 + 1 * p.val = 512 * t.val + p.val; rw [e0]; omega
  | ⟨1, _⟩ => show win0_15.index t 1 * 512 + 1 * q.val = q.val; rw [e1]; omega

/-- Entry `(p, q)` of the block of output window 16 at point `t` is entry `(512 t + p, q)` of the array. -/
theorem emb16 (t : Fin cfg0.N) (p : Fin 512) (q : Fin 1024) :
    ((cfg0.win 16).blk t).view.emb (ix2 p q : S512x1024.Idx) = (ix2 (grow t p) q : S16384x1024.Idx) := by
  obtain ⟨-, -, -, -, -, -, -, -, -, -, e0, e1⟩ := idx_rows t
  funext a
  apply Fin.ext
  match a with
  | ⟨0, _⟩ => show win0_16.index t 0 * 512 + 1 * p.val = 512 * t.val + p.val; rw [e0]; omega
  | ⟨1, _⟩ => show win0_16.index t 1 * 1024 + 1 * q.val = q.val; rw [e1]; omega

/-- Every entry of the array of output window 15 lies in the block of the point that holds its row, `⌊row / 512⌋`,
    and that point writes its block back. -/
theorem cover15 (i : S16384x512.Idx) :
    ∃ t : Fin cfg0.N, (cfg0.win 15).flush t = true ∧ i ∈ ((cfg0.win 15).blk t).view.set := by
  have hN : cfg0.N = 32 := N_0
  have hi0 : (i 0).val < 16384 := (i 0).isLt
  have hi1 : (i 1).val < 512 := (i 1).isLt
  obtain ⟨t, ht⟩ : ∃ t : Fin cfg0.N, t.val = (i 0).val / 512 := ⟨⟨(i 0).val / 512, by omega⟩, rfl⟩
  obtain ⟨-, -, -, -, -, -, -, -, e0, e1, -⟩ := idx_rows t
  refine ⟨t, flush0_15 t, ?_⟩
  show i ∈ ((View.whole main_v15_0).slice (win0_15.rect t)).set
  rw [View.set_slice_whole, Rect.mem_set_unit]
  intro a
  match a with
  | ⟨0, _⟩ =>
    show win0_15.index t (0 : Fin 2) * 512 ≤ (i 0).val ∧ (i 0).val < win0_15.index t (0 : Fin 2) * 512 + 512
    rw [e0]; omega
  | ⟨1, _⟩ =>
    show win0_15.index t (1 : Fin 2) * 512 ≤ (i 1).val ∧ (i 1).val < win0_15.index t (1 : Fin 2) * 512 + 512
    rw [e1]; omega

/-- Every entry of the array of output window 16 lies in the block of the point that holds its row, `⌊row / 512⌋`,
    and that point writes its block back. -/
theorem cover16 (i : S16384x1024.Idx) :
    ∃ t : Fin cfg0.N, (cfg0.win 16).flush t = true ∧ i ∈ ((cfg0.win 16).blk t).view.set := by
  have hN : cfg0.N = 32 := N_0
  have hi0 : (i 0).val < 16384 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, e0, e1⟩ := idx_rows t
  refine ⟨t, flush0_16 t, ?_⟩
  show i ∈ ((View.whole main_v15_1).slice (win0_16.rect t)).set
  rw [View.set_slice_whole, Rect.mem_set_unit]
  intro a
  match a with
  | ⟨0, _⟩ =>
    show win0_16.index t (0 : Fin 2) * 512 ≤ (i 0).val ∧ (i 0).val < win0_16.index t (0 : Fin 2) * 512 + 512
    rw [e0]; omega
  | ⟨1, _⟩ =>
    show win0_16.index t (1 : Fin 2) * 1024 ≤ (i 1).val ∧ (i 1).val < win0_16.index t (1 : Fin 2) * 1024 + 1024
    rw [e1]; omega

end Cert.KernelIdeal.Cover

end
-- ==== Proof.Bridge.lean ====
/-
  From the blocks to the whole arrays.

  At grid point `t` the kernel body computes, from the blocks its windows hold, a block of each output. Row `p` of
  every batch-row block is row `512 t + p` of its array, and every other window holds its whole array, so entry
  `(p, q)` of the new-state block is the specification's new state at row `512 t + p`, entry `q`, of the argument
  arrays; the same for the head. The one step that is not a re-reading: the kernel multiplies the joined input row,
  padded with 122 zeros, by the weight matrix extended with 122 zero rows, and the 122 extra products vanish, so
  the padded product is the product over the 1030 real rows. Since the 32 blocks of 512 rows tile the 16384 rows,
  each output array ends as the specification's whole-array function of the arguments.
-/
import proofs.«158063_j6562710028805_2_alg».proof.Proof.Gen.KernelIdeal.Frame
import proofs.«158063_j6562710028805_2_alg».proof.Proof.Spec
import proofs.«158063_j6562710028805_2_alg».proof.Proof.Blocks
import proofs.«158063_j6562710028805_2_alg».proof.Proof.HostIn
import proofs.«158063_j6562710028805_2_alg».proof.Proof.PayState
import proofs.«158063_j6562710028805_2_alg».proof.Proof.PayHead
import proofs.«158063_j6562710028805_2_alg».proof.Proof.Cover
import Idealize.ShloMosaic.Lib.Pipeline.Value

noncomputable section

namespace Cert.KernelIdeal.Bridge

open Cert.KernelIdeal Cert.KernelIdeal.Gen Cert.KernelIdeal.Blocks Cert.KernelIdeal.HostIn Cert.KernelIdeal.Cover
open Idealize.ShloMosaic Idealize.ShloMosaic.TcCoe Idealize.SL.Sem Idealize.ShloMosaic.ValueIdx Cert.Cell
open Idealize.ShloMosaic.Pipeline (Dat)

variable (m : (ℓ : Loc nD τ sig) → Buf (Elt Ideal) ℓ)

/-! ## The argument arrays -/

abbrev A0 (c : Dev nD) : Vec Ideal S16384x512 .f32 := m ((c : Thread nD τ).loc main_arg0)
abbrev A1 (c : Dev nD) : Vec Ideal S16384x1024 .f32 := m ((c : Thread nD τ).loc main_arg1)
abbrev A2 (c : Dev nD) : Vec Ideal S16384x6 .f32 := m ((c : Thread nD τ).loc main_arg2)
abbrev A3 (c : Dev nD) : Vec Ideal S16384x512 .f32 := m ((c : Thread nD τ).loc main_arg3)
abbrev A4 (c : Dev nD) : Vec Ideal S1030x1536 .f32 := m ((c : Thread nD τ).loc main_arg4)
abbrev A5 (c : Dev nD) : Vec Ideal S512x1536 .f32 := m ((c : Thread nD τ).loc main_arg5)
abbrev A6 (c : Dev nD) : Vec Ideal S1536 .f32 := m ((c : Thread nD τ).loc main_arg6)
abbrev A7 (c : Dev nD) : Vec Ideal S1536 .f32 := m ((c : Thread nD τ).loc main_arg7)
abbrev A8 (c : Dev nD) : Vec Ideal S1536 .f32 := m ((c : Thread nD τ).loc main_arg8)
abbrev A9 (c : Dev nD) : Vec Ideal S1536 .f32 := m ((c : Thread nD τ).loc main_arg9)
abbrev A10 (c : Dev nD) : Vec Ideal S1024x512 .f32 := m ((c : Thread nD τ).loc main_arg10)
abbrev A11 (c : Dev nD) : Vec Ideal S512 .f32 := m ((c : Thread nD τ).loc main_arg11)
abbrev A12 (c : Dev nD) : Vec Ideal S512 .f32 := m ((c : Thread nD τ).loc main_arg12)
abbrev A13 (c : Dev nD) : Vec Ideal S512x1024 .f32 := m ((c : Thread nD τ).loc main_arg13)
abbrev A14 (c : Dev nD) : Vec Ideal S1024 .f32 := m ((c : Thread nD τ).loc main_arg14)

/-! ## Rows of the batch-row blocks -/

theorem row0 (c : Dev nD) (t : Fin cfg0.N) (p : Fin 512) :
    row (iblk m c 0 t : Vec Ideal S512x512 .f32) p = row (A0 m c) (grow t p) := by
  funext k
  show (iblk m c 0 t : Vec Ideal S512x512 .f32) (ix2 p k) = (A0 m c) (ix2 (grow t p) k)
  exact (iblk0_apply m c t p k).trans (congrFun (V_main_arg0 m c) _)

theorem row1 (c : Dev nD) (t : Fin cfg0.N) (p : Fin 512) :
    row (iblk m c 1 t : Vec Ideal S512x1024 .f32) p = row (A1 m c) (grow t p) := by
  funext k
  show (iblk m c 1 t : Vec Ideal S512x1024 .f32) (ix2 p k) = (A1 m c) (ix2 (grow t p) k)
  exact (iblk1_apply m c t p k).trans (congrFun (V_main_arg1 m c) _)

theorem row2 (c : Dev nD) (t : Fin cfg0.N) (p : Fin 512) :
    row (iblk m c 2 t : Vec Ideal S512x6 .f32) p = row (A2 m c) (grow t p) := by
  funext k
  show (iblk m c 2 t : Vec Ideal S512x6 .f32) (ix2 p k) = (A2 m c) (ix2 (grow t p) k)
  exact (iblk2_apply m c t p k).trans (congrFun (V_main_arg2 m c) _)

theorem row3 (c : Dev nD) (t : Fin cfg0.N) (p : Fin 512) :
    row (iblk m c 3 t : Vec Ideal S512x512 .f32) p = row (A3 m c) (grow t p) := by
  funext k
  show (iblk m c 3 t : Vec Ideal S512x512 .f32) (ix2 p k) = (A3 m c) (ix2 (grow t p) k)
  exact (iblk3_apply m c t p k).trans (congrFun (V_main_arg3 m c) _)

/-! ## The whole windows -/

theorem mat5 (c : Dev nD) (t : Fin cfg0.N) : mat (iblk m c 5 t : Vec Ideal S512x1536 .bf16) = mat (A5 m c) := by
  rw [show (iblk m c 5 t : Vec Ideal S512x1536 .bf16) = (A5 m c) from (iblk5_eq m c t).trans (v5_eq m c)]
theorem mat10 (c : Dev nD) (t : Fin cfg0.N) : mat (iblk m c 10 t : Vec Ideal S1024x512 .bf16) = mat (A10 m c) := by
  rw [show (iblk m c 10 t : Vec Ideal S1024x512 .bf16) = (A10 m c) from (iblk10_eq m c t).trans (v6_eq m c)]
theorem mat13 (c : Dev nD) (t : Fin cfg0.N) : mat (iblk m c 13 t : Vec Ideal S512x1024 .bf16) = mat (A13 m c) := by
  rw [show (iblk m c 13 t : Vec Ideal S512x1024 .bf16) = (A13 m c) from (iblk13_eq m c t).trans (v7_eq m c)]

theorem row6 (c : Dev nD) (t : Fin cfg0.N) : row (iblk m c 6 t : Vec Ideal S1x1536 .f32) 0 = vec (A6 m c) := by
  funext j
  show (iblk m c 6 t : Vec Ideal S1x1536 .f32) (ix2 (0 : Fin 1) j) = (A6 m c) (ix1 j)
  exact (congrFun (iblk6_eq m c t) _).trans (v8_apply m c j)

theorem row7 (c : Dev nD) (t : Fin cfg0.N) : row (iblk m c 7 t : Vec Ideal S1x1536 .f32) 0 = vec (A7 m c) := by
  funext j
  show (iblk m c 7 t : Vec Ideal S1x1536 .f32) (ix2 (0 : Fin 1) j) = (A7 m c) (ix1 j)
  exact (congrFun (iblk7_eq m c t) _).trans (v9_apply m c j)

theorem row8 (c : Dev nD) (t : Fin cfg0.N) : row (iblk m c 8 t : Vec Ideal S1x1536 .f32) 0 = vec (A8 m c) := by
  funext j
  show (iblk m c 8 t : Vec Ideal S1x1536 .f32) (ix2 (0 : Fin 1) j) = (A8 m c) (ix1 j)
  exact (congrFun (iblk8_eq m c t) _).trans (v10_apply m c j)

theorem row9 (c : Dev nD) (t : Fin cfg0.N) : row (iblk m c 9 t : Vec Ideal S1x1536 .f32) 0 = vec (A9 m c) := by
  funext j
  show (iblk m c 9 t : Vec Ideal S1x1536 .f32) (ix2 (0 : Fin 1) j) = (A9 m c) (ix1 j)
  exact (congrFun (iblk9_eq m c t) _).trans (v11_apply m c j)

theorem row11 (c : Dev nD) (t : Fin cfg0.N) : row (iblk m c 11 t : Vec Ideal S1x512 .f32) 0 = vec (A11 m c) := by
  funext j
  show (iblk m c 11 t : Vec Ideal S1x512 .f32) (ix2 (0 : Fin 1) j) = (A11 m c) (ix1 j)
  exact (congrFun (iblk11_eq m c t) _).trans (v12_apply m c j)

theorem row12 (c : Dev nD) (t : Fin cfg0.N) : row (iblk m c 12 t : Vec Ideal S1x512 .f32) 0 = vec (A12 m c) := by
  funext j
  show (iblk m c 12 t : Vec Ideal S1x512 .f32) (ix2 (0 : Fin 1) j) = (A12 m c) (ix1 j)
  exact (congrFun (iblk12_eq m c t) _).trans (v13_apply m c j)

theorem row14 (c : Dev nD) (t : Fin cfg0.N) : row (iblk m c 14 t : Vec Ideal S1x1024 .f32) 0 = vec (A14 m c) := by
  funext j
  show (iblk m c 14 t : Vec Ideal S1x1024 .f32) (ix2 (0 : Fin 1) j) = (A14 m c) (ix1 j)
  exact (congrFun (iblk14_eq m c t) _).trans (v14_apply m c j)

/-! ## The padded product -/

/-- The kernel's padded product at row `p` of point `t` is the product of the joined input row `512 t + p` with the
    1030-row weight matrix. -/
theorem ih_block (c : Dev nD) (t : Fin cfg0.N) (p : Fin 512) :
    rowDot (Cert.KernelIdeal.Pay.ginPad (iblk m c 1 t) (iblk m c 2 t) p) (mat (iblk m c 4 t : Vec Ideal S1152x1536 .bf16))
      = ihRow (A1 m c) (A2 m c) (A4 m c) (grow t p) := by
  funext j
  unfold ihRow
  have hW : ∀ k : Fin 1152, mat (iblk m c 4 t : Vec Ideal S1152x1536 .bf16) k j = padded (A4 m c) (ix2 k j) := fun k =>
    (congrFun (iblk4_eq m c t) (ix2 k j)).trans (v4_apply m c k j)
  refine rowDot_pad (K := 1030) (P := 122) _ _ _ _ j (fun k => ?_) (fun k => ?_)
  · have hk : (Fin.castAdd 122 k).val < 1030 := k.isLt
    rw [hW, padded_lo _ _ hk j]
    unfold Cert.KernelIdeal.Pay.ginPad
    rw [row1, row2]
    show cat2 (n := 1152) (a := 1030) (b := 122) rfl _ _ (Fin.castAdd 122 k) * _ = _
    unfold cat2
    rw [dif_pos hk]
    rfl
  · rw [hW, padded_hi _ _ (by show 1030 ≤ 1030 + k.val; omega) j, mul_zero]

/-! ## One entry of each output block -/

theorem state_block (c : Dev nD) (t : Fin cfg0.N) (p q : Fin 512) :
    (k0_pay9 (F := Ideal) (iblk m c 0 t) (k0_pay3 (iblk m c 0 t) (iblk m c 5 t)) (k0_pay4 (iblk m c 6 t)) (k0_pay5 (iblk m c 7 t)) (k0_pay7 (iblk m c 1 t) (iblk m c 2 t) (iblk m c 4 t)) (k0_pay8 (iblk m c 1 t) (iblk m c 2 t) (iblk m c 4 t)) (iblk m c 8 t) (iblk m c 9 t)) (ix2 p q)
      = stateAt (A0 m c) (A1 m c) (A2 m c) (A4 m c) (A5 m c) (A6 m c) (A7 m c) (A8 m c) (A9 m c) (grow t p) q := by
  refine (Cert.KernelIdeal.Pay.state_apply (iblk m c 0 t) (iblk m c 1 t) (iblk m c 2 t) (iblk m c 4 t) (iblk m c 5 t) (iblk m c 6 t) (iblk m c 7 t) (iblk m c 8 t) (iblk m c 9 t) p q).trans ?_
  unfold stateAt
  rw [ih_block, mat5, row0, row6, row7, row8, row9]

theorem head_block (c : Dev nD) (t : Fin cfg0.N) (p : Fin 512) (q : Fin 1024) :
    k0_pay1 (F := Ideal) (iblk m c 3 t) (k0_pay9 (F := Ideal) (iblk m c 0 t) (k0_pay3 (iblk m c 0 t) (iblk m c 5 t)) (k0_pay4 (iblk m c 6 t)) (k0_pay5 (iblk m c 7 t)) (k0_pay7 (iblk m c 1 t) (iblk m c 2 t) (iblk m c 4 t)) (k0_pay8 (iblk m c 1 t) (iblk m c 2 t) (iblk m c 4 t)) (iblk m c 8 t) (iblk m c 9 t)) (iblk m c 10 t) (iblk m c 11 t) (iblk m c 12 t) (iblk m c 13 t) (iblk m c 14 t) (ix2 p q)
      = logitsAt (stateAt (A0 m c) (A1 m c) (A2 m c) (A4 m c) (A5 m c) (A6 m c) (A7 m c) (A8 m c) (A9 m c)) (A3 m c) (A10 m c) (A11 m c) (A12 m c) (A13 m c) (A14 m c) (grow t p) q := by
  refine (Cert.KernelIdeal.PayHead.head_apply (iblk m c 3 t) (k0_pay9 (F := Ideal) (iblk m c 0 t) (k0_pay3 (iblk m c 0 t) (iblk m c 5 t)) (k0_pay4 (iblk m c 6 t)) (k0_pay5 (iblk m c 7 t)) (k0_pay7 (iblk m c 1 t) (iblk m c 2 t) (iblk m c 4 t)) (k0_pay8 (iblk m c 1 t) (iblk m c 2 t) (iblk m c 4 t)) (iblk m c 8 t) (iblk m c 9 t)) (iblk m c 10 t) (iblk m c 11 t) (iblk m c 12 t) (iblk m c 13 t) (iblk m c 14 t) p q).trans ?_
  unfold logitsAt
  rw [show row (k0_pay9 (F := Ideal) (iblk m c 0 t) (k0_pay3 (iblk m c 0 t) (iblk m c 5 t)) (k0_pay4 (iblk m c 6 t)) (k0_pay5 (iblk m c 7 t)) (k0_pay7 (iblk m c 1 t) (iblk m c 2 t) (iblk m c 4 t)) (k0_pay8 (iblk m c 1 t) (iblk m c 2 t) (iblk m c 4 t)) (iblk m c 8 t) (iblk m c 9 t)) p = stateAt (A0 m c) (A1 m c) (A2 m c) (A4 m c) (A5 m c) (A6 m c) (A7 m c) (A8 m c) (A9 m c) (grow t p) from funext fun k => state_block m c t p k,
    row3, mat10, row11, row12, mat13, row14]

/-! ## What each point writes back, and the arrays after the run -/

theorem hz : (![0, 0] : Fin 2 → Nat) = fun _ => 0 := funext fun a => by fin_cases a <;> rfl

/-- The new state of every row. -/
abbrev G15 (c : Dev nD) : Buf (Elt Ideal) ((c : Thread nD τ).loc main_v15_0) := stateArr (A0 m c) (A1 m c) (A2 m c) (A4 m c) (A5 m c) (A6 m c) (A7 m c) (A8 m c) (A9 m c)
/-- The head's output of every row. -/
abbrev G16 (c : Dev nD) : Buf (Elt Ideal) ((c : Thread nD τ).loc main_v15_1) := logitsArr (stateAt (A0 m c) (A1 m c) (A2 m c) (A4 m c) (A5 m c) (A6 m c) (A7 m c) (A8 m c) (A9 m c)) (A3 m c) (A10 m c) (A11 m c) (A12 m c) (A13 m c) (A14 m c)

theorem flushed15 (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  unfold out0_15
  rw [View.canon_unit_zero hz]
  simp only [View.ld_unit_zero (S := S512x512) hz, View.ld_unit_zero (S := S512x1024) hz, View.ld_unit_zero (S := S512x6) hz,
    View.ld_unit_zero (S := S1152x1536) hz, View.ld_unit_zero (S := S512x1536) hz, View.ld_unit_zero (S := S1x1536) hz]
  funext y
  obtain ⟨p, q, rfl⟩ : ∃ (p q : Fin 512), y = ix2 p q := ⟨y 0, y 1, eq_ix2 y⟩
  rw [View.read_apply, emb15]
  exact state_block m c t p q

theorem flushed16 (c : Dev nD) (t : Fin cfg0.N) :
    (dats m 0 c).flushed 16 t = ((cfg0.win 16).blk t).view.read (Elt Ideal) (G16 m c) := by
  show (cfg0.win 16).cut (grid0.coords t) ((dats m 0 c).after 16 t) = _
  rw [after0_16]
  unfold out0_16
  rw [View.canon_unit_zero hz]
  simp only [View.ld_unit_zero (S := S512x512) hz, View.ld_unit_zero (S := S512x1024) hz, View.ld_unit_zero (S := S512x6) hz,
    View.ld_unit_zero (S := S1152x1536) hz, View.ld_unit_zero (S := S512x1536) hz, View.ld_unit_zero (S := S1x1536) hz,
    View.ld_unit_zero (S := S1024x512) hz, View.ld_unit_zero (S := S1x512) hz, View.ld_unit_zero (S := S1x1024) hz]
  funext y
  obtain ⟨p, q, rfl⟩ : ∃ (p : Fin 512) (q : Fin 1024), y = ix2 p q := ⟨y 0, y 1, eq_ix2 y⟩
  rw [View.read_apply, emb16]
  exact head_block m c t p q

theorem final15 (c : Dev nD) : (dats m 0 c).arrAt 15 cfg0.N = G15 m c :=
  (dats m 0 c).arrAt_eq_of_cover 15 (G15 m c) (fun t _ => flushed15 m c t) cover15

theorem final16 (c : Dev nD) : (dats m 0 c).arrAt 16 cfg0.N = G16 m c :=
  (dats m 0 c).arrAt_eq_of_cover 16 (G16 m c) (fun t _ => flushed16 m c t) cover16

end Cert.KernelIdeal.Bridge

end
-- ==== Proof.KernelRun.lean ====
/-
  The kernel's run, read at its two results and its arguments.

  The program is host operations, one region, and one host operation after it: a reshape of the second output array,
  whose rows of 1024 entries become 32 × 32. The run of the whole program ends with every array of the region at
  what the region's data give for it and every other unscoped buffer as the operation after the region leaves it.
  Read at the first output array this is the data's array; read at the reshaped buffer it is the reshape of the
  data's second output array; read at an argument array it is the array as launched: an argument the region stages
  is an input, which the region does not change, and the other arguments are written by no operation.
-/
import proofs.«158063_j6562710028805_2_alg».proof.Proof.Gen.KernelIdeal.Frame

noncomputable section
namespace Cert.KernelIdeal.Tail
open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- The one operation after the region reshapes the second output array: the 1024 entries of a row become 32 × 32. -/
theorem tail_v16 (c : Dev nD) :
    Pipeline.afterTail₀ cfgs (dats m) 0 (V0 m) [hostOps1] c main_v16
      = shapeCast S16384x32x32 ((dats m 0 c).arrAt 16 cfg0.N : Vec F S16384x1024 .f32) shapeCasts_S16384x1024_S16384x32x32 := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.devRef .tc main_v15_1)
      = (dats m 0 c).arrAt 16 cfg0.N := Pipeline.withArrays_arr spec0 launch0.win.arr_inj c _ _ 16
  rw [hw]
  rfl

/-- The kernel's run: every weakly fair execution terminates; at the end the first output array holds what the
    pipeline's data give for it, the reshaped buffer holds the second output array with each row of 1024 entries
    read as 32 × 32, and every argument array is as launched. -/
theorem run_of
    (G15 : (c : Dev nD) → Buf (Elt F) ((c : Thread nD τ).loc main_v15_0))
    (G16 : (c : Dev nD) → Buf (Elt F) ((c : Thread nD τ).loc main_v15_1))
    (h15 : ∀ c, (dats m 0 c).arrAt 15 cfg0.N = G15 c)
    (h16 : ∀ c, (dats m 0 c).arrAt 16 cfg0.N = G16 c) :
    θ_run defs (onTc (τ := τ) (main (F := F))) ⟨m, fun _ => 0, ρ⟩ (fun r => ∀ c : Dev nD,
      r.2.mem ((c.tc : Thread nD τ).loc main_v15_0) = G15 c
      ∧ r.2.mem ((c.tc : Thread nD τ).loc main_v16) = shapeCast S16384x32x32 (G16 c : Vec F S16384x1024 .f32) shapeCasts_S16384x1024_S16384x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 15).trans (h15 c),
      ((h c).2 main_v16 (Pipeline.mem_restRefs_of main_v16 (by decide) (by decide))).trans
        ((tail_v16 m c).trans (congrArg (fun A : Vec F S16384x1024 .f32 => shapeCast S16384x32x32 A shapeCasts_S16384x1024_S16384x32x32) (h16 c))),
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).1 3).trans ((((dats m 0 c).arrAt_in 3 rfl _).trans ((A_eq m c 3).trans (V_main_arg3 m c)))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Tail
end
-- ==== Proof.RefState.lean ====
/-
  The reference program's new state, read at an entry.

  Every batch row is computed independently. Read at entry `(r, j)`, the reference's value is the specification's
  row function: the two pre-activations of row `r` (a row vector times a weight matrix, the first row vector being
  two rows joined end to end), each normalised along the row (mean, mean of squared deviations, inverse root, gain
  and bias), cut into three groups of 512, and combined by the gates. The lemmas below follow the program stage by
  stage, each stating one intermediate array at an entry as the corresponding term of the specification.
-/
import proofs.«158063_j6562710028805_2_alg».proof.Proof.Gen.ReferenceIdeal.Read
import proofs.«158063_j6562710028805_2_alg».proof.Proof.Spec

noncomputable section
namespace Cert.ReferenceIdeal.RefValue
open Cert.ReferenceIdeal Cert.ReferenceIdeal.Gen Idealize.ShloMosaic Idealize.ShloMosaic.ValueIdx Cert.Cell

section Stages
variable (x0 : (⟨S16384x512, .f32⟩ : BufTy).Contents (Elt Ideal)) (x1 : (⟨S16384x1024, .f32⟩ : BufTy).Contents (Elt Ideal))
    (x2 : (⟨S16384x6, .f32⟩ : BufTy).Contents (Elt Ideal)) (x4 : (⟨S1030x1536, .f32⟩ : BufTy).Contents (Elt Ideal))
    (x5 : (⟨S512x1536, .f32⟩ : BufTy).Contents (Elt Ideal)) (x6 x7 x8 x9 : (⟨S1536, .f32⟩ : BufTy).Contents (Elt Ideal))
    (r : Fin 16384)

/-! ### The two pre-activations -/

/-- The two input arrays joined along their columns, at row `r`: the two rows joined end to end. -/
theorem joined_at (k : Fin 1030) :
    Read.val_main_v0 (F := Ideal) x1 x2 (ix2 r k) = cat2 (n := 1030) rfl (row x1 r) (row x2 r) k := by
  unfold Read.val_main_v0 cat2
  by_cases h : k.val < 1024
  · rw [dif_pos h]
    exact concatenate_pair_apply_left (t := S16384x1030) (s₁ := S16384x1024) (s₂ := S16384x6) (1 : Fin 2) x1 x2
      concatenates_S16384x1024_S16384x6_S16384x1030_d1 (ix2 r k) rfl (ix2 r (⟨k.val, h⟩ : Fin 1024)) (fun b => by
        match b with
        | ⟨0, _⟩ => rfl
        | ⟨1, _⟩ => rfl)
  · rw [dif_neg h]
    exact concatenate_pair_apply_right (t := S16384x1030) (s₁ := S16384x1024) (s₂ := S16384x6) (1 : Fin 2) x1 x2
      concatenates_S16384x1024_S16384x6_S16384x1030_d1 (ix2 r k) rfl rfl
      (ix2 r (⟨k.val - 1024, by have := k.isLt; omega⟩ : Fin 6)) (fun b hb => by
        match b with
        | ⟨0, _⟩ => rfl
        | ⟨1, _⟩ => exact absurd rfl hb) (by
        show k.val - 1024 + 1024 = k.val; omega)

/-- The input pre-activation: the joined row times the input weight matrix. -/
theorem ih_at (c : Fin 1536) :
    Read.val_main_v1 (F := Ideal) x1 x2 x4 (ix2 r c) = ihRow x1 x2 x4 r c := by
  rw [Read.val_main_v1_apply]
  unfold ihRow rowDot mat
  refine Finset.sum_congr rfl fun k _ => ?_
  have el : Read.lidx_main_v1 (ix2 r c) k = ix2 r k := funext fun a => Fin.ext (by match a with | ⟨0, _⟩ => rfl | ⟨1, _⟩ => rfl)
  have er : Read.ridx_main_v1 (ix2 r c) k = ix2 k c := funext fun a => Fin.ext (by match a with | ⟨0, _⟩ => rfl | ⟨1, _⟩ => rfl)
  rw [el, er, joined_at]

/-- The state pre-activation: the previous state's row times the state weight matrix. -/
theorem hh_at (c : Fin 1536) :
    Read.val_main_v26 (F := Ideal) x0 x5 (ix2 r c) = rowDot (row x0 r) (mat x5) c := by
  rw [Read.val_main_v26_apply]
  unfold rowDot mat row
  refine Finset.sum_congr rfl fun k _ => ?_
  have el : Read.lidx_main_v26 (ix2 r c) k = ix2 r k := funext fun a => Fin.ext (by match a with | ⟨0, _⟩ => rfl | ⟨1, _⟩ => rfl)
  have er : Read.ridx_main_v26 (ix2 r c) k = ix2 k c := funext fun a => Fin.ext (by match a with | ⟨0, _⟩ => rfl | ⟨1, _⟩ => rfl)
  rw [el, er]

/-! ### The first normalisation (of the input pre-activation) -/

/-- The mean of the row, as the program computes it: the sum along the row from the zero word, divided by the word 1536.0. -/
theorem ih_mean (u : Fin 1) :
    Read.val_main_v5 (F := Ideal) x1 x2 x4 (ix2 r u) = rowMean w1536 (ihRow x1 x2 x4 r) := by
  rw [Read.val_main_v5_apply, Read.val_main_v3_apply, Read.val_main_v4_apply, Read.val_main_v2_apply,
    Read.val_main_cst_apply, Read.val_main_cst_0_apply]
  simp only [Ideal.hostDivf_def, Ideal.ofBits_def, Ideal.ofBits_zero_f32, zero_add]
  unfold rowMean
  refine congrArg (Ideal.div · w1536) (Finset.sum_congr rfl fun k _ => ?_)
  have e : Read.idx_main_v2 (Read.idx_main_v3 (ix2 r u)) k = ix2 r k := funext fun a => Fin.ext (by match a with | ⟨0, _⟩ => rfl | ⟨1, _⟩ => rfl)
  rw [e, ih_at]

/-- The row less its mean (the copy that is squared). -/
theorem ih_centred (c : Fin 1536) :
    Read.val_main_v7 (F := Ideal) x1 x2 x4 (ix2 r c) = centred w1536 (ihRow x1 x2 x4 r) c := by
  rw [Read.val_main_v7_apply, Read.val_main_v6_apply]
  have e : Read.idx_main_v6 (ix2 r c) = ix2 r (⟨0, Nat.one_pos⟩ : Fin 1) := funext fun a => Fin.ext (by match a with | ⟨0, _⟩ => rfl | ⟨1, _⟩ => rfl)
  rw [e, ih_mean, ih_at]
  rfl

/-- The row less its mean (the copy that is scaled). -/
theorem ih_centred' (c : Fin 1536) :
    Read.val_main_v14 (F := Ideal) x1 x2 x4 (ix2 r c) = centred w1536 (ihRow x1 x2 x4 r) c := by
  rw [Read.val_main_v14_apply, Read.val_main_v13_apply]
  have e : Read.idx_main_v13 (ix2 r c) = ix2 r (⟨0, Nat.one_pos⟩ : Fin 1) := funext fun a => Fin.ext (by match a with | ⟨0, _⟩ => rfl | ⟨1, _⟩ => rfl)
  rw [e, ih_mean, ih_at]
  rfl

/-- The mean of the squared deviations of the row. -/
theorem ih_var (u : Fin 1) :
    Read.val_main_v12 (F := Ideal) x1 x2 x4 (ix2 r u)
      = rowMean w1536 (fun k => centred w1536 (ihRow x1 x2 x4 r) k * centred w1536 (ihRow x1 x2 x4 r) k) := by
  rw [Read.val_main_v12_apply, Read.val_main_v10_apply, Read.val_main_v11_apply, Read.val_main_v9_apply,
    Read.val_main_cst_1_apply, Read.val_main_cst_2_apply]
  simp only [Ideal.hostDivf_def, Ideal.ofBits_def, Ideal.ofBits_zero_f32, zero_add]
  unfold rowMean
  refine congrArg (Ideal.div · w1536) (Finset.sum_congr rfl fun k _ => ?_)
  have e : Read.idx_main_v9 (Read.idx_main_v10 (ix2 r u)) k = ix2 r k := funext fun a => Fin.ext (by match a with | ⟨0, _⟩ => rfl | ⟨1, _⟩ => rfl)
  rw [e, Read.val_main_v8_apply, ih_centred]
  rfl

/-- The normalised row: deviation times the inverse root of (variance plus the small constant), times the gain, plus the bias. -/
theorem ih_norm (c : Fin 1536) :
    Read.val_main_v25 (F := Ideal) x1 x2 x4 x6 x7 (ix2 r c) = layerNorm w1536 wEpsLn (ihRow x1 x2 x4 r) (vec x6) (vec x7) c := by
  rw [Read.val_main_v25_apply, Read.val_main_v22_apply, Read.val_main_v19_apply, Read.val_main_v18_apply,
    Read.val_main_v17_apply, Read.val_main_v16_apply, Read.val_main_v15_apply, Read.val_main_cst_3_apply,
    Read.val_main_v21_apply, Read.val_main_v20_apply, Read.val_main_v24_apply, Read.val_main_v23_apply]
  have e1 : Read.idx_main_v18 (ix2 r c) = ix2 r (⟨0, Nat.one_pos⟩ : Fin 1) := funext fun a => Fin.ext (by match a with | ⟨0, _⟩ => rfl | ⟨1, _⟩ => rfl)
  have e2 : Read.idx_main_v20 (Read.idx_main_v21 (ix2 r c)) = ix1 c := funext fun a => Fin.ext (by match a with | ⟨0, _⟩ => rfl)
  have e3 : Read.idx_main_v23 (Read.idx_main_v24 (ix2 r c)) = ix1 c := funext fun a => Fin.ext (by match a with | ⟨0, _⟩ => rfl)
  rw [e1, e2, e3, ih_centred', ih_var]
  rfl

/-! ### The second normalisation (of the state pre-activation) -/

/-- The mean of the row, as the program computes it: the sum along the row from the zero word, divided by the word 1536.0. -/
theorem hh_mean (u : Fin 1) :
    Read.val_main_v30 (F := Ideal) x0 x5 (ix2 r u) = rowMean w1536 (rowDot (row x0 r) (mat x5)) := by
  rw [Read.val_main_v30_apply, Read.val_main_v28_apply, Read.val_main_v29_apply, Read.val_main_v27_apply,
    Read.val_main_cst_4_apply, Read.val_main_cst_5_apply]
  simp only [Ideal.hostDivf_def, Ideal.ofBits_def, Ideal.ofBits_zero_f32, zero_add]
  unfold rowMean
  refine congrArg (Ideal.div · w1536) (Finset.sum_congr rfl fun k _ => ?_)
  have e : Read.idx_main_v27 (Read.idx_main_v28 (ix2 r u)) k = ix2 r k := funext fun a => Fin.ext (by match a with | ⟨0, _⟩ => rfl | ⟨1, _⟩ => rfl)
  rw [e, hh_at]

/-- The row less its mean (the copy that is squared). -/
theorem hh_centred (c : Fin 1536) :
    Read.val_main_v32 (F := Ideal) x0 x5 (ix2 r c) = centred w1536 (rowDot (row x0 r) (mat x5)) c := by
  rw [Read.val_main_v32_apply, Read.val_main_v31_apply]
  have e : Read.idx_main_v31 (ix2 r c) = ix2 r (⟨0, Nat.one_pos⟩ : Fin 1) := funext fun a => Fin.ext (by match a with | ⟨0, _⟩ => rfl | ⟨1, _⟩ => rfl)
  rw [e, hh_mean, hh_at]
  rfl

/-- The row less its mean (the copy that is scaled). -/
theorem hh_centred' (c : Fin 1536) :
    Read.val_main_v39 (F := Ideal) x0 x5 (ix2 r c) = centred w1536 (rowDot (row x0 r) (mat x5)) c := by
  rw [Read.val_main_v39_apply, Read.val_main_v38_apply]
  have e : Read.idx_main_v38 (ix2 r c) = ix2 r (⟨0, Nat.one_pos⟩ : Fin 1) := funext fun a => Fin.ext (by match a with | ⟨0, _⟩ => rfl | ⟨1, _⟩ => rfl)
  rw [e, hh_mean, hh_at]
  rfl

/-- The mean of the squared deviations of the row. -/
theorem hh_var (u : Fin 1) :
    Read.val_main_v37 (F := Ideal) x0 x5 (ix2 r u)
      = rowMean w1536 (fun k => centred w1536 (rowDot (row x0 r) (mat x5)) k * centred w1536 (rowDot (row x0 r) (mat x5)) k) := by
  rw [Read.val_main_v37_apply, Read.val_main_v35_apply, Read.val_main_v36_apply, Read.val_main_v34_apply,
    Read.val_main_cst_6_apply, Read.val_main_cst_7_apply]
  simp only [Ideal.hostDivf_def, Ideal.ofBits_def, Ideal.ofBits_zero_f32, zero_add]
  unfold rowMean
  refine congrArg (Ideal.div · w1536) (Finset.sum_congr rfl fun k _ => ?_)
  have e : Read.idx_main_v34 (Read.idx_main_v35 (ix2 r u)) k = ix2 r k := funext fun a => Fin.ext (by match a with | ⟨0, _⟩ => rfl | ⟨1, _⟩ => rfl)
  rw [e, Read.val_main_v33_apply, hh_centred]
  rfl

/-- The normalised row: deviation times the inverse root of (variance plus the small constant), times the gain, plus the bias. -/
theorem hh_norm (c : Fin 1536) :
    Read.val_main_v50 (F := Ideal) x0 x5 x8 x9 (ix2 r c) = layerNorm w1536 wEpsLn (rowDot (row x0 r) (mat x5)) (vec x8) (vec x9) c := by
  rw [Read.val_main_v50_apply, Read.val_main_v47_apply, Read.val_main_v44_apply, Read.val_main_v43_apply,
    Read.val_main_v42_apply, Read.val_main_v41_apply, Read.val_main_v40_apply, Read.val_main_cst_8_apply,
    Read.val_main_v46_apply, Read.val_main_v45_apply, Read.val_main_v49_apply, Read.val_main_v48_apply]
  have e1 : Read.idx_main_v43 (ix2 r c) = ix2 r (⟨0, Nat.one_pos⟩ : Fin 1) := funext fun a => Fin.ext (by match a with | ⟨0, _⟩ => rfl | ⟨1, _⟩ => rfl)
  have e2 : Read.idx_main_v45 (Read.idx_main_v46 (ix2 r c)) = ix1 c := funext fun a => Fin.ext (by match a with | ⟨0, _⟩ => rfl)
  have e3 : Read.idx_main_v48 (Read.idx_main_v49 (ix2 r c)) = ix1 c := funext fun a => Fin.ext (by match a with | ⟨0, _⟩ => rfl)
  rw [e1, e2, e3, hh_centred', hh_var]
  rfl

/-! ### The three groups of each normalised row -/

theorem ih_grp0 (j : Fin 512) :
    Read.val_main_v51 (F := Ideal) x1 x2 x4 x6 x7 (ix2 r j) = layerNorm w1536 wEpsLn (ihRow x1 x2 x4 r) (vec x6) (vec x7) (grp 0 (by decide) j) := by
  rw [Read.val_main_v51_apply]
  have e : Read.idx_main_v51 (ix2 r j) = ix2 r (grp 0 (by decide) j) := funext fun a => Fin.ext (by match a with | ⟨0, _⟩ => rfl | ⟨1, _⟩ => exact (Nat.zero_add _).symm)
  rw [e, ih_norm]

theorem ih_grp1 (j : Fin 512) :
    Read.val_main_v52 (F := Ideal) x1 x2 x4 x6 x7 (ix2 r j) = layerNorm w1536 wEpsLn (ihRow x1 x2 x4 r) (vec x6) (vec x7) (grp 512 (by decide) j) := by
  rw [Read.val_main_v52_apply]
  have e : Read.idx_main_v52 (ix2 r j) = ix2 r (grp 512 (by decide) j) := funext fun a => Fin.ext (by match a with | ⟨0, _⟩ => rfl | ⟨1, _⟩ => rfl)
  rw [e, ih_norm]

theorem ih_grp2 (j : Fin 512) :
    Read.val_main_v53 (F := Ideal) x1 x2 x4 x6 x7 (ix2 r j) = layerNorm w1536 wEpsLn (ihRow x1 x2 x4 r) (vec x6) (vec x7) (grp 1024 (by decide) j) := by
  rw [Read.val_main_v53_apply]
  have e : Read.idx_main_v53 (ix2 r j) = ix2 r (grp 1024 (by decide) j) := funext fun a => Fin.ext (by match a with | ⟨0, _⟩ => rfl | ⟨1, _⟩ => rfl)
  rw [e, ih_norm]

theorem hh_grp0 (j : Fin 512) :
    Read.val_main_v54 (F := Ideal) x0 x5 x8 x9 (ix2 r j) = layerNorm w1536 wEpsLn (rowDot (row x0 r) (mat x5)) (vec x8) (vec x9) (grp 0 (by decide) j) := by
  rw [Read.val_main_v54_apply]
  have e : Read.idx_main_v54 (ix2 r j) = ix2 r (grp 0 (by decide) j) := funext fun a => Fin.ext (by match a with | ⟨0, _⟩ => rfl | ⟨1, _⟩ => exact (Nat.zero_add _).symm)
  rw [e, hh_norm]

theorem hh_grp1 (j : Fin 512) :
    Read.val_main_v55 (F := Ideal) x0 x5 x8 x9 (ix2 r j) = layerNorm w1536 wEpsLn (rowDot (row x0 r) (mat x5)) (vec x8) (vec x9) (grp 512 (by decide) j) := by
  rw [Read.val_main_v55_apply]
  have e : Read.idx_main_v55 (ix2 r j) = ix2 r (grp 512 (by decide) j) := funext fun a => Fin.ext (by match a with | ⟨0, _⟩ => rfl | ⟨1, _⟩ => rfl)
  rw [e, hh_norm]

theorem hh_grp2 (j : Fin 512) :
    Read.val_main_v56 (F := Ideal) x0 x5 x8 x9 (ix2 r j) = layerNorm w1536 wEpsLn (rowDot (row x0 r) (mat x5)) (vec x8) (vec x9) (grp 1024 (by decide) j) := by
  rw [Read.val_main_v56_apply]
  have e : Read.idx_main_v56 (ix2 r j) = ix2 r (grp 1024 (by decide) j) := funext fun a => Fin.ext (by match a with | ⟨0, _⟩ => rfl | ⟨1, _⟩ => rfl)
  rw [e, hh_norm]

/-! ### The gates -/

/-- The reset gate: the logistic function, written out as `1 / (1 + e^(-x))`, of the sum of the first groups. -/
theorem reset_at (j : Fin 512) :
    Read.val_main_v63 (F := Ideal) x0 x1 x2 x4 x5 x6 x7 x8 x9 (ix2 r j)
      = Ideal.logistic (layerNorm w1536 wEpsLn (ihRow x1 x2 x4 r) (vec x6) (vec x7) (grp 0 (by decide) j) + layerNorm w1536 wEpsLn (rowDot (row x0 r) (mat x5)) (vec x8) (vec x9) (grp 0 (by decide) j)) := by
  rw [Read.val_main_v63_apply, Read.val_main_v62_apply, Read.val_main_cst_10_apply, Read.val_main_v61_apply,
    Read.val_main_v60_apply, Read.val_main_cst_9_apply, Read.val_main_v59_apply, Read.val_main_v58_apply,
    Read.val_main_v57_apply, ih_grp0, hh_grp0]
  exact logistic_spelt _

/-- The update gate: the logistic function of the sum of the second groups. -/
theorem update_at (j : Fin 512) :
    Read.val_main_v70 (F := Ideal) x0 x1 x2 x4 x5 x6 x7 x8 x9 (ix2 r j)
      = Ideal.logistic (layerNorm w1536 wEpsLn (ihRow x1 x2 x4 r) (vec x6) (vec x7) (grp 512 (by decide) j) + layerNorm w1536 wEpsLn (rowDot (row x0 r) (mat x5)) (vec x8) (vec x9) (grp 512 (by decide) j)) := by
  rw [Read.val_main_v70_apply, Read.val_main_v69_apply, Read.val_main_cst_12_apply, Read.val_main_v68_apply,
    Read.val_main_v67_apply, Read.val_main_cst_11_apply, Read.val_main_v66_apply, Read.val_main_v65_apply,
    Read.val_main_v64_apply, ih_grp1, hh_grp1]
  exact logistic_spelt _

end Stages

/-- The reference's new state at entry `(r, j)` is the specification's. -/
theorem state_ref (x0 : (⟨S16384x512, .f32⟩ : BufTy).Contents (Elt Ideal)) (x1 : (⟨S16384x1024, .f32⟩ : BufTy).Contents (Elt Ideal))
    (x2 : (⟨S16384x6, .f32⟩ : BufTy).Contents (Elt Ideal)) (x4 : (⟨S1030x1536, .f32⟩ : BufTy).Contents (Elt Ideal))
    (x5 : (⟨S512x1536, .f32⟩ : BufTy).Contents (Elt Ideal)) (x6 x7 x8 x9 : (⟨S1536, .f32⟩ : BufTy).Contents (Elt Ideal))
    (r : Fin 16384) (j : Fin 512) :
    Read.val_main_v78 (F := Ideal) x0 x1 x2 x4 x5 x6 x7 x8 x9 (ix2 r j) = stateAt x0 x1 x2 x4 x5 x6 x7 x8 x9 r j := by
  rw [Read.val_main_v78_apply, Read.val_main_v77_apply, Read.val_main_v76_apply, Read.val_main_v75_apply,
    Read.val_main_v74_apply, Read.val_main_cst_13_apply, Read.val_main_v73_apply, Read.val_main_v72_apply,
    Read.val_main_v71_apply, update_at, reset_at, ih_grp2, hh_grp2]
  rfl

end Cert.ReferenceIdeal.RefValue
end
-- ==== Proof.RefHead.lean ====
/-
  The reference's read-out head, read at an entry.

  For batch row `r` the head joins the new state's row and the embedding's row into 1024 entries, applies a matrix
  and a bias (512 entries), divides by the root of the mean square plus a small constant and scales, applies
  `x · logistic x`, and applies a second matrix and bias (1024 entries). Each operation of the reference is read at an
  index given by its coordinates, stage by stage, and each stage is the specification's row function of the same name:
  the joined input row, the first layer, the normalised first layer, the activation, and the head itself. The new
  state enters only through its entries `(r, k)`, `k < 512`: the statement holds for whatever array it is.
-/
import proofs.«158063_j6562710028805_2_alg».proof.Proof.Gen.ReferenceIdeal.Read
import proofs.«158063_j6562710028805_2_alg».proof.Proof.Spec

noncomputable section
namespace Cert.ReferenceIdeal.RefHead
open Cert.ReferenceIdeal Cert.ReferenceIdeal.Gen Idealize.ShloMosaic Idealize.ShloMosaic.ValueIdx Cert.Cell

section Stages

variable (x0 : (⟨S16384x512, .f32⟩ : BufTy).Contents (Elt Ideal)) (x1 : (⟨S16384x1024, .f32⟩ : BufTy).Contents (Elt Ideal))
  (x2 : (⟨S16384x6, .f32⟩ : BufTy).Contents (Elt Ideal)) (x3 : (⟨S16384x512, .f32⟩ : BufTy).Contents (Elt Ideal))
  (x4 : (⟨S1030x1536, .f32⟩ : BufTy).Contents (Elt Ideal))
  (x5 : (⟨S512x1536, .f32⟩ : BufTy).Contents (Elt Ideal)) (x6 x7 x8 x9 : (⟨S1536, .f32⟩ : BufTy).Contents (Elt Ideal))
  (x10 : (⟨S1024x512, .f32⟩ : BufTy).Contents (Elt Ideal)) (x11 x12 : (⟨S512, .f32⟩ : BufTy).Contents (Elt Ideal))
  (x13 : (⟨S512x1024, .f32⟩ : BufTy).Contents (Elt Ideal)) (x14 : (⟨S1024, .f32⟩ : BufTy).Contents (Elt Ideal))

/-! ## Index equations

The index maps the generated reading composes, at an index given by its coordinates. -/

theorem lidx80 (r : Fin 16384) (c : Fin 512) (k : Fin 1024) : Read.lidx_main_v80 (ix2 r c) k = ix2 r k :=
  funext fun a => Fin.ext (by match a with | ⟨0, _⟩ => rfl | ⟨1, _⟩ => rfl)

theorem ridx80 (r : Fin 16384) (c : Fin 512) (k : Fin 1024) : Read.ridx_main_v80 (ix2 r c) k = ix2 k c :=
  funext fun a => Fin.ext (by match a with | ⟨0, _⟩ => rfl | ⟨1, _⟩ => rfl)

theorem idx82 (r : Fin 16384) (c : Fin 512) : Read.idx_main_v81 (Read.idx_main_v82 (ix2 r c)) = ix1 c :=
  funext fun a => Fin.ext (by match a with | ⟨0, _⟩ => rfl)

theorem idx85 (r : Fin 16384) (c : Fin 512) (k : Fin 512) :
    Read.idx_main_v85 (Read.idx_main_v86 (Read.idx_main_v92 (ix2 r c))) k = ix2 r k :=
  funext fun a => Fin.ext (by match a with | ⟨0, _⟩ => rfl | ⟨1, _⟩ => rfl)

theorem idx95 (r : Fin 16384) (c : Fin 512) : Read.idx_main_v94 (Read.idx_main_v95 (ix2 r c)) = ix1 c :=
  funext fun a => Fin.ext (by match a with | ⟨0, _⟩ => rfl)

theorem lidx98 (r : Fin 16384) (j : Fin 1024) (k : Fin 512) : Read.lidx_main_v98 (ix2 r j) k = ix2 r k :=
  funext fun a => Fin.ext (by match a with | ⟨0, _⟩ => rfl | ⟨1, _⟩ => rfl)

theorem ridx98 (r : Fin 16384) (j : Fin 1024) (k : Fin 512) : Read.ridx_main_v98 (ix2 r j) k = ix2 k j :=
  funext fun a => Fin.ext (by match a with | ⟨0, _⟩ => rfl | ⟨1, _⟩ => rfl)

theorem idx100 (r : Fin 16384) (j : Fin 1024) : Read.idx_main_v99 (Read.idx_main_v100 (ix2 r j)) = ix1 j :=
  funext fun a => Fin.ext (by match a with | ⟨0, _⟩ => rfl)

/-! ## The head's input row -/

/-- The head's input row of batch row `r`: the new state's row joined with the embedding's row. -/
def pin (r : Fin 16384) : Fin 1024 → EReal :=
  cat2 (n := 1024) rfl (fun k => Read.val_main_v78 (F := Ideal) x0 x1 x2 x4 x5 x6 x7 x8 x9 (ix2 r k)) (row x3 r)

/-- The joined array read at `(r, k)`: below 512 the new state, from 512 on the embedding. -/
theorem v79_at (r : Fin 16384) (k : Fin 1024) :
    Read.val_main_v79 (F := Ideal) x0 x1 x2 x3 x4 x5 x6 x7 x8 x9 (ix2 r k) = pin x0 x1 x2 x3 x4 x5 x6 x7 x8 x9 r k := by
  unfold pin Read.val_main_v79
  generalize Read.val_main_v78 (F := Ideal) x0 x1 x2 x4 x5 x6 x7 x8 x9 = h
  unfold cat2
  by_cases hk : k.val < 512
  · rw [dif_pos hk]
    exact concatenate_pair_apply_left (t := S16384x1024) (s₁ := S16384x512) (s₂ := S16384x512) 1 h x3 _ (ix2 r k) rfl
      (ix2 r ⟨k.val, hk⟩) (fun b => by match b with | ⟨0, _⟩ => rfl | ⟨1, _⟩ => rfl)
  · rw [dif_neg hk]
    exact concatenate_pair_apply_right (t := S16384x1024) (s₁ := S16384x512) (s₂ := S16384x512) 1 h x3 _ (ix2 r k) rfl rfl
      (ix2 r ⟨k.val - 512, by have := k.isLt; omega⟩)
      (fun b hb => by match b, hb with | ⟨0, _⟩, _ => rfl | ⟨1, _⟩, hb => exact absurd rfl hb)
      (by show k.val - 512 + 512 = k.val; omega)

/-! ## The head, stage by stage -/

/-- The first layer read at `(r, c)`: the input row times the matrix, plus the bias. -/
theorem v83_at (r : Fin 16384) (c : Fin 512) :
    Read.val_main_v83 (F := Ideal) x0 x1 x2 x3 x4 x5 x6 x7 x8 x9 x10 x11 (ix2 r c)
      = pre (pin x0 x1 x2 x3 x4 x5 x6 x7 x8 x9 r) (mat x10) (vec x11) c := by
  rw [Read.val_main_v83_apply, Read.val_main_v80_apply, Read.val_main_v82_apply, Read.val_main_v81_apply, idx82]
  unfold pre rowDot
  refine congrArg₂ (· + ·) (Finset.sum_congr rfl fun k _ => ?_) rfl
  rw [lidx80, ridx80, v79_at]
  rfl

/-- The normalised first layer read at `(r, c)`. -/
theorem v96_at (r : Fin 16384) (c : Fin 512) :
    Read.val_main_v96 (F := Ideal) x0 x1 x2 x3 x4 x5 x6 x7 x8 x9 x10 x11 x12 (ix2 r c)
      = rmsNorm (pre (pin x0 x1 x2 x3 x4 x5 x6 x7 x8 x9 r) (mat x10) (vec x11)) (vec x12) c := by
  rw [Read.val_main_v96_apply, Read.val_main_v95_apply, Read.val_main_v94_apply, idx95,
    Read.val_main_v93_apply, Read.val_main_v92_apply, Read.val_main_v91_apply, Read.val_main_v90_apply,
    Read.val_main_v89_apply, Read.val_main_cst_16_apply, Read.val_main_v88_apply, Read.val_main_v87_apply,
    Read.val_main_cst_15_apply, Read.val_main_v86_apply, Read.val_main_v85_apply, Read.val_main_cst_14_apply]
  simp only [Ideal.ofBits_def, Ideal.ofBits_zero_f32, zero_add, Ideal.hostDivf_def, Ideal.hostUnary_rsqrt_def,
    Ideal.addf_def, Ideal.mulf_def]
  unfold rmsNorm rowMean
  rw [v83_at]
  refine congrArg₂ (· * ·) (congrArg₂ (· * ·) rfl (congrArg Ideal.rsqrt (congrArg₂ (· + ·)
    (congrArg (Ideal.div · w512) (Finset.sum_congr rfl fun k _ => ?_)) rfl))) rfl
  rw [idx85, Read.val_main_v84_apply, v83_at]
  rfl

/-- The activation read at `(r, c)`. -/
theorem v97_at (r : Fin 16384) (c : Fin 512) :
    Read.val_main_v97 (F := Ideal) x0 x1 x2 x3 x4 x5 x6 x7 x8 x9 x10 x11 x12 (ix2 r c)
      = silu (rmsNorm (pre (pin x0 x1 x2 x3 x4 x5 x6 x7 x8 x9 r) (mat x10) (vec x11)) (vec x12) c) := by
  rw [Read.val_main_v97_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, v96_at]
  simp only [Ideal.ofBits_def, Ideal.hostDivf_def, Ideal.hostUnary_exp_def, Ideal.hostNegf_def, Ideal.negf_def,
    Ideal.addf_def, Ideal.mulf_def]
  unfold silu
  rw [logistic_spelt]

end Stages

/-- The reference's head read at `(r, j)` is the head of row `r` on the reference's new state. -/
theorem logits_ref (x0 : (⟨S16384x512, .f32⟩ : BufTy).Contents (Elt Ideal)) (x1 : (⟨S16384x1024, .f32⟩ : BufTy).Contents (Elt Ideal))
    (x2 : (⟨S16384x6, .f32⟩ : BufTy).Contents (Elt Ideal)) (x3 : (⟨S16384x512, .f32⟩ : BufTy).Contents (Elt Ideal))
    (x4 : (⟨S1030x1536, .f32⟩ : BufTy).Contents (Elt Ideal))
    (x5 : (⟨S512x1536, .f32⟩ : BufTy).Contents (Elt Ideal)) (x6 x7 x8 x9 : (⟨S1536, .f32⟩ : BufTy).Contents (Elt Ideal))
    (x10 : (⟨S1024x512, .f32⟩ : BufTy).Contents (Elt Ideal)) (x11 x12 : (⟨S512, .f32⟩ : BufTy).Contents (Elt Ideal))
    (x13 : (⟨S512x1024, .f32⟩ : BufTy).Contents (Elt Ideal)) (x14 : (⟨S1024, .f32⟩ : BufTy).Contents (Elt Ideal))
    (r : Fin 16384) (j : Fin 1024) :
    Read.val_main_v101 (F := Ideal) x0 x1 x2 x3 x4 x5 x6 x7 x8 x9 x10 x11 x12 x13 x14 (ix2 r j)
      = logitsAt (fun r k => Read.val_main_v78 (F := Ideal) x0 x1 x2 x4 x5 x6 x7 x8 x9 (ix2 r k)) x3 x10 x11 x12 x13 x14 r j := by
  rw [Read.val_main_v101_apply, Read.val_main_v98_apply, Read.val_main_v100_apply, Read.val_main_v99_apply, idx100]
  show _ = logits (pin x0 x1 x2 x3 x4 x5 x6 x7 x8 x9 r) (mat x10) (vec x11) (vec x12) (mat x13) (vec x14) j
  unfold logits rowDot
  refine congrArg₂ (· + ·) (Finset.sum_congr rfl fun k _ => ?_) rfl
  rw [lidx98, ridx98, v97_at]
  rfl

end Cert.ReferenceIdeal.RefHead
end
-- ==== Proof.RefArrays.lean ====
/-
  The reference's two results as whole arrays.

  The reference's new state, read at every entry `(r, j)`, is the specification's state of row `r`; so the whole
  array is the specification's state array. Its head, read at every entry, is the specification's head of row `r`
  on that state; so the array before the final reshape is the specification's head array over the specification's
  state, and the result is that array reshaped from `[16384, 1024]` to `[16384, 32, 32]`.
-/
import proofs.«158063_j6562710028805_2_alg».proof.Proof.RefState
import proofs.«158063_j6562710028805_2_alg».proof.Proof.RefHead

noncomputable section
namespace Cert.ReferenceIdeal.RefArrays
open Cert.ReferenceIdeal Cert.ReferenceIdeal.Gen Idealize.ShloMosaic Idealize.ShloMosaic.TcCoe Idealize.SL.Sem Idealize.ShloMosaic.ValueIdx Cert.Cell

/-- The reference's new state, as an array, is the specification's state array: the two agree at every entry. -/
theorem state_arr (x0 : (⟨S16384x512, .f32⟩ : BufTy).Contents (Elt Ideal)) (x1 : (⟨S16384x1024, .f32⟩ : BufTy).Contents (Elt Ideal))
    (x2 : (⟨S16384x6, .f32⟩ : BufTy).Contents (Elt Ideal)) (x4 : (⟨S1030x1536, .f32⟩ : BufTy).Contents (Elt Ideal))
    (x5 : (⟨S512x1536, .f32⟩ : BufTy).Contents (Elt Ideal)) (x6 x7 x8 x9 : (⟨S1536, .f32⟩ : BufTy).Contents (Elt Ideal)) :
    Read.val_main_v78 (F := Ideal) x0 x1 x2 x4 x5 x6 x7 x8 x9 = stateArr x0 x1 x2 x4 x5 x6 x7 x8 x9 := by
  funext i
  obtain ⟨r, j, rfl⟩ : ∃ (r : Fin 16384) (j : Fin 512), i = ix2 r j := ⟨i 0, i 1, eq_ix2 i⟩
  exact Cert.ReferenceIdeal.RefValue.state_ref x0 x1 x2 x4 x5 x6 x7 x8 x9 r j

/-- The reference's head before its final reshape, as an array, is the specification's head array over the
    specification's state: at every entry the head of row `r` reads the state only through its entries, and those
    are the specification's. -/
theorem logits_arr (x0 : (⟨S16384x512, .f32⟩ : BufTy).Contents (Elt Ideal)) (x1 : (⟨S16384x1024, .f32⟩ : BufTy).Contents (Elt Ideal))
    (x2 : (⟨S16384x6, .f32⟩ : BufTy).Contents (Elt Ideal)) (x3 : (⟨S16384x512, .f32⟩ : BufTy).Contents (Elt Ideal))
    (x4 : (⟨S1030x1536, .f32⟩ : BufTy).Contents (Elt Ideal))
    (x5 : (⟨S512x1536, .f32⟩ : BufTy).Contents (Elt Ideal)) (x6 x7 x8 x9 : (⟨S1536, .f32⟩ : BufTy).Contents (Elt Ideal))
    (x10 : (⟨S1024x512, .f32⟩ : BufTy).Contents (Elt Ideal)) (x11 x12 : (⟨S512, .f32⟩ : BufTy).Contents (Elt Ideal))
    (x13 : (⟨S512x1024, .f32⟩ : BufTy).Contents (Elt Ideal)) (x14 : (⟨S1024, .f32⟩ : BufTy).Contents (Elt Ideal)) :
    Read.val_main_v101 (F := Ideal) x0 x1 x2 x3 x4 x5 x6 x7 x8 x9 x10 x11 x12 x13 x14
      = logitsArr (stateAt x0 x1 x2 x4 x5 x6 x7 x8 x9) x3 x10 x11 x12 x13 x14 := by
  funext i
  obtain ⟨r, j, rfl⟩ : ∃ (r : Fin 16384) (j : Fin 1024), i = ix2 r j := ⟨i 0, i 1, eq_ix2 i⟩
  refine (Cert.ReferenceIdeal.RefHead.logits_ref x0 x1 x2 x3 x4 x5 x6 x7 x8 x9 x10 x11 x12 x13 x14 r j).trans ?_
  exact congrArg (fun h => logitsAt h x3 x10 x11 x12 x13 x14 r j)
    (funext fun r' => funext fun k => Cert.ReferenceIdeal.RefValue.state_ref x0 x1 x2 x4 x5 x6 x7 x8 x9 r' k)

/-- The first result of the reference's run is the specification's state array of the arguments. -/
theorem res_state (m' : (ℓ : Loc nD τ sig) → Buf (Elt Ideal) ℓ) (c : Dev nD) :
    Cert.ReferenceIdeal.Value.res_main_v78 m' c
      = stateArr (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) := by
  rw [Read.val_main_v78_eq]
  exact state_arr _ _ _ _ _ _ _ _ _

/-- The second result of the reference's run is the specification's head array over the specification's state,
    reshaped to `[16384, 32, 32]`. -/
theorem res_logits (m' : (ℓ : Loc nD τ sig) → Buf (Elt Ideal) ℓ) (c : Dev nD) :
    Cert.ReferenceIdeal.Value.res_main_v102 m' c
      = shapeCast S16384x32x32 (logitsArr (stateAt (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))) (m' ((c.tc : Thread nD τ).loc main_arg3)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) : Vec Ideal S16384x1024 .f32) shapeCasts_S16384x1024_S16384x32x32 := by
  rw [Read.val_main_v102_eq]
  unfold Read.val_main_v102
  exact congrArg (fun X => shapeCast S16384x32x32 X shapeCasts_S16384x1024_S16384x32x32)
    (logits_arr _ _ _ _ _ _ _ _ _ _ _ _ _ _ _)

end Cert.ReferenceIdeal.RefArrays
end
-- ==== Proof.lean ====
/-
  A recurrent cell with a read-out head, tiled over the batch, against its plain array form.

  Both programs compute, for each of 16384 batch rows independently, a new state of 512 entries and a head output
  of 1024 entries (returned as 32 × 32). The new state: two row-times-matrix products (the joined inputs, 1030
  entries, and the previous state, 512 entries, each into 1536 entries), each normalised to zero mean and unit
  variance over its 1536 entries with a gain and a bias, then combined in three groups of 512 by two logistic gates
  and a hyperbolic tangent. The head: the new state joined with the row's embedding, a matrix and bias, division by
  the root of the mean square, a scale, `x · logistic x`, a second matrix and bias.

  Over the extended reals the two programs are the same function of the arguments, entry by entry. The tiled program
  works on 32 blocks of 512 rows, which tile the batch, and every row's result depends on that row alone. It pads the
  joined input row with 122 zeros and the first weight matrix with 122 zero rows before multiplying: the extra
  products are `0 · 0`, so the sum is unchanged. It rounds some operands to a shorter float format, which is the
  identity on the extended reals. It uses the logistic function as one operation where the array form writes
  `1 / (1 + e^(-x))` with the same word for one: the same function. Every other step is the same operation on the
  same numbers, the divisors and small constants being spelt by the same float words in both programs. No step uses
  that the inputs are finite.
-/
import proofs.«158063_j6562710028805_2_alg».proof.Defs
import proofs.«158063_j6562710028805_2_alg».proof.Proof.Gen.Kernel
import proofs.«158063_j6562710028805_2_alg».proof.Proof.Gen.Kernel.Frame
import proofs.«158063_j6562710028805_2_alg».proof.Proof.Gen.KernelIdeal
import proofs.«158063_j6562710028805_2_alg».proof.Proof.Gen.KernelIdeal.Frame
import proofs.«158063_j6562710028805_2_alg».proof.Proof.Gen.ReferenceIdeal
import proofs.«158063_j6562710028805_2_alg».proof.Proof.Gen.ReferenceIdeal.Run
import proofs.«158063_j6562710028805_2_alg».proof.Proof.Gen.ReferenceIdeal.Read
import proofs.«158063_j6562710028805_2_alg».proof.Proof.Gen.Pre_finite_inputs
import proofs.«158063_j6562710028805_2_alg».proof.Proof.Bridge
import proofs.«158063_j6562710028805_2_alg».proof.Proof.KernelRun
import proofs.«158063_j6562710028805_2_alg».proof.Proof.RefArrays
import Idealize.ShloMosaic.Adequacy
import Idealize.ShloMosaic.Init

noncomputable section

namespace Cert.Proof

open Idealize.ShloMosaic Idealize.ShloMosaic.TcCoe Idealize.SL.Sem

/-- The tiled program runs and leaves its arguments as they were. -/
theorem frame_kernel [Cert.Kernel.Facts] [Cert.Pre_finite_inputs.Facts] : Cert.frame_Kernel :=
  fun m ρ _ => Cert.Kernel.Gen.frame m ρ

/-- The same read over the extended reals. -/
theorem frame_kernelIdeal [Cert.KernelIdeal.Facts] [Cert.Pre_finite_inputs.Facts] : Cert.frame_KernelIdeal :=
  fun m ρ _ => Cert.KernelIdeal.Gen.frame m ρ

/-- The array form runs and leaves its arguments as they were: its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From arguments that agree, the tiled program's two result arrays and the array form's are the same functions of
    the arguments: the new state of every row, and the head's output of every row viewed as 32 × 32. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Bridge.G15 m c,
    fun c => shapeCast Cert.KernelIdeal.S16384x32x32 (Cert.KernelIdeal.Bridge.G16 m c : Vec Ideal Cert.KernelIdeal.S16384x1024 .f32)
      Cert.KernelIdeal.Facts₀.shapeCasts_S16384x1024_S16384x32x32,
    Cert.KernelIdeal.Tail.run_of m ρ (Cert.KernelIdeal.Bridge.G15 m) (Cert.KernelIdeal.Bridge.G16 m)
      (Cert.KernelIdeal.Bridge.final15 m) (Cert.KernelIdeal.Bridge.final16 m), ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14⟩ := hagree c
  refine ⟨(h c).1.trans ?_, (h c).2.1.trans ?_, (h c).2.2⟩
  · rw [Cert.ReferenceIdeal.RefArrays.res_state, e0, e1, e2, e4, e5, e6, e7, e8, e9]
  · rw [Cert.ReferenceIdeal.RefArrays.res_logits, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
